-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 55
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S1x64, .f32⟩
  | .hbm, ⟨54, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x64, .f32⟩
  | .hbm, ⟨66, _⟩ => ⟨S_, .f32⟩
  | .hbm, ⟨67, _⟩ => ⟨S1700000, .f32⟩
  | .hbm, ⟨68, _⟩ => ⟨S_, .f32⟩
  | .hbm, ⟨69, _⟩ => ⟨S100000, .f32⟩
  | .hbm, ⟨70, _⟩ => ⟨S1700000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000, .f32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x64, .f32⟩
  | .hbm, ⟨104, _⟩ => ⟨S1700000x1, .f32⟩
  | .hbm, ⟨105, _⟩ => ⟨S1700000x64, .f32⟩
  | .hbm, ⟨106, _⟩ => ⟨S1700000x64, .f32⟩
  | .hbm, ⟨107, _⟩ => ⟨S_, .f32⟩
  | .hbm, ⟨108, _⟩ => ⟨S100000x64, .f32⟩
  | .hbm, ⟨109, _⟩ => ⟨S1700000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .f32⟩
  | .hbm, ⟨119, _⟩ => ⟨S_, .f32⟩
  | .hbm, ⟨120, _⟩ => ⟨S100000x64, .f32⟩
  | .hbm, ⟨121, _⟩ => ⟨S100000x64, .f32⟩
  | .hbm, ⟨122, _⟩ => ⟨S_, .f32⟩
  | .hbm, ⟨123, _⟩ => ⟨S100000x64, .f32⟩
  | .hbm, ⟨124, _⟩ => ⟨S100000x64, .f32⟩
  | .hbm, ⟨125, _⟩ => ⟨S_, .f32⟩
  | .hbm, ⟨126, _⟩ => ⟨S100000x64, .f32⟩
  | .hbm, ⟨127, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_18 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_cst_20 : Ref sig .tc := ⟨.hbm, 122, rfl⟩
abbrev main_v92 : Ref sig .tc := ⟨.hbm, 123, rfl⟩
abbrev main_v93 : Ref sig .tc := ⟨.hbm, 124, rfl⟩
abbrev main_cst_21 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The run of the idealized kernel program with its result named.

  The program is three pipelined regions among stretches of host operations. Every weakly fair execution terminates
  without a fault, and ends with every unscoped buffer at the contents the fold of the segments gives it: the result
  buffer at the last region's output array after all its write-backs, each argument as launched.
-/
import proofs.«111116_j15650860826706_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the fold's contents, the
    arguments as launched. -/
theorem run_result : θ_run defs (onTc (τ := τ) (main (F := F))) ⟨m, fun _ => 0, ρ⟩ (fun r => ∀ c : Dev nD,
      r.2.mem ((c.tc : Thread nD τ).loc main_v38) = W6 m ρ c (Proc.devRef .tc main_v38) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.Region0.lean ====
/-
  The first pipelined region: the scaled linear transform of layer 1.

  Grid point t (of 20) reads rows 5000·t … 5000·t + 4999 of the node features X [100000, 128], the whole weight matrix
  W [128, 128] and the same rows of the column D [100000, 1] of node scales, and writes those rows of the output:
      out(r, c) = (Σ_k X(r, k) · W(k, c)) · D(r, 0).
  The narrowing of both matmul operands to bf16 is the identity on the extended reals, and the product accumulates into zero.
  The 20 blocks tile the rows, so after the run the whole output array is that function of the arrays the region found.
-/
import proofs.«111116_j15650860826706_2_alg».proof.Proof.Gen.KernelIdeal.Frame
import proofs.«111116_j15650860826706_2_alg».proof.Proof.LibPlainMatmul
import proofs.«111116_j15650860826706_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- Entry (r, c) of the scaled product. -/
def scaledProductAt (X : S100000x128.Idx → EReal) (W : S128x128.Idx → EReal) (D : S100000x1.Idx → EReal)
    (r : Fin 100000) (c : Fin 128) : EReal :=
  (∑ k : Fin 128, X (ix2 r k) * W (ix2 k c)) * D (ix2 r 0)

/-- The scaled product as an array. -/
def scaledProduct (X : S100000x128.Idx → EReal) (W : S128x128.Idx → EReal) (D : S100000x1.Idx → EReal) :
    S100000x128.Idx → EReal := fun i => scaledProductAt X W D (i 0) (i 1)

theorem hz : (![0, 0] : Fin 2 → Nat) = fun _ => 0 := funext fun a => by fin_cases a <;> rfl

/-- The body's one store, at entry (p, q) of the block, over any loaded blocks. -/
theorem pay_apply (x0 : FVec Ideal S5000x128 .f32) (x1 : FVec Ideal S128x128 .f32) (x2 : FVec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [mulf_apply, KeepdimsColumn.broadcastTo_a1_ab_apply, shapeCast_self]
  rw [show dot_S5000x128_S128x128_S5000x128_1_0_0_1_n_n = DotDims.plain 5000 128 128 from rfl]
  have hmm : matmul (DotDims.plain 5000 128 128) none (truncf .bf16 x0 bitsLt_bf16_f32) (truncf .bf16 x1 bitsLt_bf16_f32)
      (constant S5000x128 .f32 0x00000000#32) (ix2 p q) = ∑ k : Fin 128, x0 (ix2 p k) * x1 (ix2 k q) :=
    PlainMatmul.apply_zero (M := 5000) (K := 128) (N := 128) (truncf .bf16 x0 bitsLt_bf16_f32) (truncf .bf16 x1 bitsLt_bf16_f32) p q
  rw [hmm]

/-- The windows' index maps over the grid: the row windows move together, one block per point; the weights stay. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the scaled product of the arrays the region found. -/
theorem flushed_eq (c : Dev nD) (t : Fin cfg0.N) :
    (dat0 (F := Ideal) V c).flushed 3 t = ((cfg0.win 3).blk t).view.read (Elt Ideal)
      (scaledProduct (V c main_arg0) (V c main_arg2) (V c main_v13)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e30, e31, e00, e01, e10, e11, e20, e21⟩ := idx_facts t
  funext j
  obtain ⟨p, q, rfl⟩ : ∃ (p : Fin 5000) (q : Fin 128), j = ix2 p q := ⟨j 0, j 1, eq_ix2 j⟩
  refine (pay_apply (iblk0 V c 0 t) (iblk0 V c 1 t) (iblk0 V c 2 t) p q).trans ?_
  have htN : t.val < 20 := Nat.lt_of_lt_of_eq t.isLt (show cfg0.N = 20 from N_0)
  let r : Fin 100000 := ⟨t.val * 5000 + p.val, by omega⟩
  have h3 : ((cfg0.win 3).blk t).view.emb (ix2 p q) = (ix2 r q : S100000x128.Idx) := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have h0 : ∀ k : Fin 128, ((cfg0.win 0).blk t).view.emb (ix2 p k) = (ix2 r k : S100000x128.Idx) := fun k => by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, ((cfg0.win 1).blk t).view.emb (ix2 k q) = (ix2 k q : S128x128.Idx) := fun k => by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : ((cfg0.win 2).blk t).view.emb (ix2 p (0 : Fin 1)) = (ix2 r (0 : Fin 1) : S100000x1.Idx) := by
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  have key : ∀ (X : S100000x128.Idx → EReal) (W : S128x128.Idx → EReal) (D : S100000x1.Idx → EReal),
      (∑ k : Fin 128, X (((cfg0.win 0).blk t).view.emb (ix2 p k)) * W (((cfg0.win 1).blk t).view.emb (ix2 k q)))
          * D (((cfg0.win 2).blk t).view.emb (ix2 p (0 : Fin 1)))
        = scaledProduct X W D (((cfg0.win 3).blk t).view.emb (ix2 p q)) := by
    intro X W D
    rw [h3, h2]
    simp only [h0, h1]
    rfl
  exact key (V c main_arg0) (V c main_arg2) (V c main_v13)

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Every row lies in the block of the point its number divided by 5000 names. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e30, e31, -⟩ := idx_facts t
  refine ⟨t, flush0_3 t, ?_⟩
  rw [mem_blk]
  intro a
  have ht : t.val = (i 0).val / 5000 := rfl
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region its output array is the scaled product of the arrays it found. -/
theorem final (c : Dev nD) :
    (dat0 (F := Ideal) V c).arrAt 3 cfg0.N = scaledProduct (V c main_arg0) (V c main_arg2) (V c main_v13) :=
  (dat0 (F := Ideal) V c).arrAt_eq_of_cover 3 _ (fun t _ => flushed_eq V c t) cover

end Cert.KernelIdeal.Region0

end
-- ==== Proof.Region1.lean ====
/-
  The second pipelined region: the aggregation of layer 1 finished, then the linear transform of layer 2.

  Grid point t (of 20) reads rows 5000·t … 5000·t + 4999 of the scattered sums T [100000, 128], of the scaled features
  H [100000, 128] and of the column D [100000, 1], the bias row B [1, 128] and the weights W [128, 64] whole, and writes
  those rows of the output:
      a(r, k)   = D(r, 0) · (T(r, k) + H(r, k)) + B(0, k)
      out(r, c) = (Σ_k max(a(r, k), 0) · W(k, c)) · D(r, 0).
  The narrowing to bf16 is the identity on the extended reals. The 20 blocks tile the rows.
-/
import proofs.«111116_j15650860826706_2_alg».proof.Proof.Gen.KernelIdeal.Frame
import proofs.«111116_j15650860826706_2_alg».proof.Proof.LibPlainMatmul
import proofs.«111116_j15650860826706_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The finished aggregation at (r, k): the node's scale times (scattered sum + own scaled feature), plus the bias. -/
def aggAt (T H : S100000x128.Idx → EReal) (D : S100000x1.Idx → EReal) (B : S1x128.Idx → EReal) (r : Fin 100000) (k : Fin 128) : EReal :=
  D (ix2 r 0) * (T (ix2 r k) + H (ix2 r k)) + B (ix2 (0 : Fin 1) k)

/-- Entry (r, c) of the region's output. -/
def nextScaledAt (T H : S100000x128.Idx → EReal) (D : S100000x1.Idx → EReal) (B : S1x128.Idx → EReal) (W : S128x64.Idx → EReal)
    (r : Fin 100000) (c : Fin 64) : EReal :=
  (∑ k : Fin 128, max (aggAt T H D B r k) (Ideal.ofBits .f32 0x00000000#32) * W (ix2 k c)) * D (ix2 r 0)

/-- The region's output as an array. -/
def nextScaled (T H : S100000x128.Idx → EReal) (D : S100000x1.Idx → EReal) (B : S1x128.Idx → EReal) (W : S128x64.Idx → EReal) :
    S100000x64.Idx → EReal := fun i => nextScaledAt T H D B W (i 0) (i 1)

theorem hz : (![0, 0] : Fin 2 → Nat) = fun _ => 0 := funext fun a => by fin_cases a <;> rfl

/-- The body's one store, at entry (p, q) of the block, over any loaded blocks. -/
theorem pay_apply (v0 : FVec Ideal S5000x1 .f32) (v2 v4 : FVec Ideal S5000x128 .f32) (v9 : FVec Ideal S1x128 .f32)
    (v16 : FVec Ideal S128x64 .f32) (v19 : FVec Ideal S5000x1 .f32) (p : Fin 5000) (q : Fin 64) :
    k1_pay1 (F := Ideal) v0 v2 v4 v9 v16 v19 (ix2 p q)
      = (∑ k : Fin 128, max (v0 (ix2 p (0 : Fin 1)) * (v2 (ix2 p k) + v4 (ix2 p k)) + v9 (ix2 (0 : Fin 1) k)) (Ideal.ofBits .f32 0x00000000#32) * v16 (ix2 k q))
        * v19 (ix2 p (0 : Fin 1)) := by
  unfold k1_pay1
  simp only [shapeCast_self]
  rw [mulf_apply, KeepdimsColumn.broadcastTo_a1_ab_apply]
  rw [show dot_S5000x128_S128x64_S5000x64_1_0_0_1_n_n = DotDims.plain 5000 128 64 from rfl]
  refine (congrArg (· * v19 (ix2 p (0 : Fin 1))) (PlainMatmul.apply_zero (M := 5000) (K := 128) (N := 64) _ _ p q)).trans ?_
  refine congrArg (· * v19 (ix2 p (0 : Fin 1))) (Finset.sum_congr rfl fun k _ => ?_)
  rw [truncf_apply, truncf_apply, maximumf_apply, addf_apply, mulf_apply, addf_apply,
    KeepdimsColumn.broadcastTo_a1_ab_apply, broadcastTo_1b_ab_apply]
  rfl

/-- The windows' index maps over the grid: the row windows move together, one block per point; bias and weights stay. -/
theorem idx_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point t writes back is block t of the region's output function of the arrays the region found. -/
theorem flushed_eq (c : Dev nD) (t : Fin cfg1.N) :
    (dat1 (F := Ideal) V c).flushed 5 t = ((cfg1.win 5).blk t).view.read (Elt Ideal)
      (nextScaled (V c main_v24) (V c main_v14) (V c main_v13) (V c main_v25) (V c main_arg4)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S5000x1) hz,
    View.ld_unit_zero (S := S1x128) hz]
  obtain ⟨e50, e51, e00, e01, e10, e11, e20, e21, e30, e31, e40, e41⟩ := idx_facts t
  funext j
  obtain ⟨p, q, rfl⟩ : ∃ (p : Fin 5000) (q : Fin 64), j = ix2 p q := ⟨j 0, j 1, eq_ix2 j⟩
  refine (pay_apply (iblk1 V c 2 t) (iblk1 V c 0 t) (iblk1 V c 1 t) (iblk1 V c 3 t) (iblk1 V c 4 t) (iblk1 V c 2 t) p q).trans ?_
  have htN : t.val < 20 := Nat.lt_of_lt_of_eq t.isLt (show cfg1.N = 20 from N_1)
  let r : Fin 100000 := ⟨t.val * 5000 + p.val, by omega⟩
  have h5 : ((cfg1.win 5).blk t).view.emb (ix2 p q) = (ix2 r q : S100000x64.Idx) := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  have h0 : ∀ k : Fin 128, ((cfg1.win 0).blk t).view.emb (ix2 p k) = (ix2 r k : S100000x128.Idx) := fun k => by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ∀ k : Fin 128, ((cfg1.win 1).blk t).view.emb (ix2 p k) = (ix2 r k : S100000x128.Idx) := fun k => by
    funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  have h2 : ((cfg1.win 2).blk t).view.emb (ix2 p (0 : Fin 1)) = (ix2 r (0 : Fin 1) : S100000x1.Idx) := by
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  have h3 : ∀ k : Fin 128, ((cfg1.win 3).blk t).view.emb (ix2 (0 : Fin 1) k) = (ix2 (0 : Fin 1) k : S1x128.Idx) := fun k => by
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have h4 : ∀ k : Fin 128, ((cfg1.win 4).blk t).view.emb (ix2 k q) = (ix2 k q : S128x64.Idx) := fun k => by
    funext a; apply Fin.ext
    match a with
    | ⟨0, _⟩ => show win1_4.index t (0 : Fin 2) * 128 + 1 * k.val = k.val; omega
    | ⟨1, _⟩ => show win1_4.index t (1 : Fin 2) * 64 + 1 * q.val = q.val; omega
  have key : ∀ (T H : S100000x128.Idx → EReal) (D : S100000x1.Idx → EReal) (B : S1x128.Idx → EReal) (W : S128x64.Idx → EReal),
      (∑ k : Fin 128, max (D (((cfg1.win 2).blk t).view.emb (ix2 p (0 : Fin 1)))
            * (T (((cfg1.win 0).blk t).view.emb (ix2 p k)) + H (((cfg1.win 1).blk t).view.emb (ix2 p k)))
            + B (((cfg1.win 3).blk t).view.emb (ix2 (0 : Fin 1) k))) (Ideal.ofBits .f32 0x00000000#32)
          * W (((cfg1.win 4).blk t).view.emb (ix2 k q)))
        * D (((cfg1.win 2).blk t).view.emb (ix2 p (0 : Fin 1)))
        = nextScaled T H D B W (((cfg1.win 5).blk t).view.emb (ix2 p q)) := by
    intro T H D B W
    rw [h5, h2]
    simp only [h0, h1, h3, h4]
    rfl
  exact key (V c main_v24) (V c main_v14) (V c main_v13) (V c main_v25) (V c main_arg4)

/-- An index of the array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v26).slice (win1_5.rect t)).set ↔ _
  rw [View.set_slice_whole, Rect.mem_set_unit]
  exact Iff.rfl

/-- Every row lies in the block of the point its number divided by 5000 names. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e50, e51, -⟩ := idx_facts t
  refine ⟨t, flush1_5 t, ?_⟩
  rw [mem_blk]
  intro a
  have ht : t.val = (i 0).val / 5000 := rfl
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the region its output array is that function of the arrays it found. -/
theorem final (c : Dev nD) :
    (dat1 (F := Ideal) V c).arrAt 5 cfg1.N
      = nextScaled (V c main_v24) (V c main_v14) (V c main_v13) (V c main_v25) (V c main_arg4) :=
  (dat1 (F := Ideal) V c).arrAt_eq_of_cover 5 _ (fun t _ => flushed_eq V c t) cover

end Cert.KernelIdeal.Region1

end
-- ==== Proof.Region2.lean ====
/-
  The third pipelined region: the aggregation of layer 2 finished, then the sigmoid and the final affine map.

  Grid point t (of 20) reads rows 5000·t … 5000·t + 4999 of the scattered sums T [100000, 64], of the scaled features
  H [100000, 64] and of the column D [100000, 1], and the bias row B [1, 64] whole, and writes those rows of the result:
      a(r, c)   = D(r, 0) · (T(r, c) + H(r, c)) + B(0, c)
      out(r, c) = sigmoid(a(r, c)) · f32(0.8) + f32(0.1).
  The 20 blocks tile the rows.
-/
import proofs.«111116_j15650860826706_2_alg».proof.Proof.Gen.KernelIdeal.Frame
import proofs.«111116_j15650860826706_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- Entry (r, c) of the result. -/
def resultAt (T H : S100000x64.Idx → EReal) (D : S100000x1.Idx → EReal) (B : S1x64.Idx → EReal) (r : Fin 100000) (c : Fin 64) : EReal :=
  Ideal.logistic (D (ix2 r 0) * (T (ix2 r c) + H (ix2 r c)) + B (ix2 0 c)) * Ideal.ofBits .f32 0x3F4CCCCD#32
    + Ideal.ofBits .f32 0x3DCCCCCD#32

/-- The result as an array. -/
def result (T H : S100000x64.Idx → EReal) (D : S100000x1.Idx → EReal) (B : S1x64.Idx → EReal) :
    S100000x64.Idx → EReal := fun i => resultAt T H D B (i 0) (i 1)

theorem hz : (![0, 0] : Fin 2 → Nat) = fun _ => 0 := funext fun a => by fin_cases a <;> rfl

/-- The body's one store, at entry (p, q) of the block, over any loaded blocks. -/
theorem pay_apply (v0 : FVec Ideal S5000x1 .f32) (v2 v4 : FVec Ideal S5000x64 .f32) (v9 : FVec Ideal S1x64 .f32)
    (p : Fin 5000) (q : Fin 64) :
    k2_pay1 (F := Ideal) v0 v2 v4 v9 (ix2 p q)
      = Ideal.logistic (v0 (ix2 p (0 : Fin 1)) * (v2 (ix2 p q) + v4 (ix2 p q)) + v9 (ix2 (0 : Fin 1) q)) * Ideal.ofBits .f32 0x3F4CCCCD#32
        + Ideal.ofBits .f32 0x3DCCCCCD#32 := by
  unfold k2_pay1
  rw [addf_apply, mulf_apply]
  show Ideal.logistic _ * _ + _ = _
  rw [addf_apply, mulf_apply, addf_apply, KeepdimsColumn.broadcastTo_a1_ab_apply, broadcastTo_1b_ab_apply]
  simp only [shapeCast_self]
  rfl

/-- The windows' index maps over the grid: the row windows move together, one block per point; the bias stays. -/
theorem idx_facts : ∀ t : Fin cfg2.N, win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 :=
  (by decide +kernel : ∀ t : Fin grid2.N, _)

/-- What point t writes back is block t of the result function of the arrays the region found. -/
theorem flushed_eq (c : Dev nD) (t : Fin cfg2.N) :
    (dat2 (F := Ideal) V c).flushed 4 t = ((cfg2.win 4).blk t).view.read (Elt Ideal)
      (result (V c main_v36) (V c main_v26) (V c main_v13) (V c main_v37)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S1x64) hz]
  obtain ⟨e40, e41, e00, e01, e10, e11, e20, e21, e30, e31⟩ := idx_facts t
  funext j
  obtain ⟨p, q, rfl⟩ : ∃ (p : Fin 5000) (q : Fin 64), j = ix2 p q := ⟨j 0, j 1, eq_ix2 j⟩
  refine (pay_apply (iblk2 V c 2 t) (iblk2 V c 0 t) (iblk2 V c 1 t) (iblk2 V c 3 t) p q).trans ?_
  have htN : t.val < 20 := Nat.lt_of_lt_of_eq t.isLt (show cfg2.N = 20 from N_2)
  let r : Fin 100000 := ⟨t.val * 5000 + p.val, by omega⟩
  have h4 : ((cfg2.win 4).blk t).view.emb (ix2 p q) = (ix2 r q : S100000x64.Idx) := by
    funext a; apply Fin.ext
    match a with
    | ⟨0, _⟩ => show win2_4.index t (0 : Fin 2) * 5000 + 1 * p.val = t.val * 5000 + p.val; omega
    | ⟨1, _⟩ => show win2_4.index t (1 : Fin 2) * 64 + 1 * q.val = q.val; omega
  have h0 : ((cfg2.win 0).blk t).view.emb (ix2 p q) = (ix2 r q : S100000x64.Idx) := by
    funext a; apply Fin.ext
    match a with
    | ⟨0, _⟩ => show win2_0.index t (0 : Fin 2) * 5000 + 1 * p.val = t.val * 5000 + p.val; omega
    | ⟨1, _⟩ => show win2_0.index t (1 : Fin 2) * 64 + 1 * q.val = q.val; omega
  have h1 : ((cfg2.win 1).blk t).view.emb (ix2 p q) = (ix2 r q : S100000x64.Idx) := by
    funext a; apply Fin.ext
    match a with
    | ⟨0, _⟩ => show win2_1.index t (0 : Fin 2) * 5000 + 1 * p.val = t.val * 5000 + p.val; omega
    | ⟨1, _⟩ => show win2_1.index t (1 : Fin 2) * 64 + 1 * q.val = q.val; omega
  have h2 : ((cfg2.win 2).blk t).view.emb (ix2 p (0 : Fin 1)) = (ix2 r (0 : Fin 1) : S100000x1.Idx) := by
    funext a; apply Fin.ext
    match a with
    | ⟨0, _⟩ => show win2_2.index t (0 : Fin 2) * 5000 + 1 * p.val = t.val * 5000 + p.val; omega
    | ⟨1, _⟩ => show win2_2.index t (1 : Fin 2) * 1 + 1 * 0 = 0; omega
  have h3 : ((cfg2.win 3).blk t).view.emb (ix2 (0 : Fin 1) q) = (ix2 (0 : Fin 1) q : S1x64.Idx) := by
    funext a; apply Fin.ext
    match a with
    | ⟨0, _⟩ => show win2_3.index t (0 : Fin 2) * 1 + 1 * 0 = 0; omega
    | ⟨1, _⟩ => show win2_3.index t (1 : Fin 2) * 64 + 1 * q.val = q.val; omega
  have key : ∀ (T H : S100000x64.Idx → EReal) (D : S100000x1.Idx → EReal) (B : S1x64.Idx → EReal),
      Ideal.logistic (D (((cfg2.win 2).blk t).view.emb (ix2 p (0 : Fin 1)))
            * (T (((cfg2.win 0).blk t).view.emb (ix2 p q)) + H (((cfg2.win 1).blk t).view.emb (ix2 p q)))
            + B (((cfg2.win 3).blk t).view.emb (ix2 (0 : Fin 1) q))) * Ideal.ofBits .f32 0x3F4CCCCD#32 + Ideal.ofBits .f32 0x3DCCCCCD#32
        = result T H D B (((cfg2.win 4).blk t).view.emb (ix2 p q)) := by
    intro T H D B
    rw [h4, h2, h0, h1, h3]
    rfl
  exact key (V c main_v36) (V c main_v26) (V c main_v13) (V c main_v37)

/-- An index of the array is in point t's block iff each coordinate is in the block's range on its axis. -/
theorem mem_blk (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v38).slice (win2_4.rect t)).set ↔ _
  rw [View.set_slice_whole, Rect.mem_set_unit]
  exact Iff.rfl

/-- Every row lies in the block of the point its number divided by 5000 names. -/
theorem cover (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e40, e41, -⟩ := idx_facts t
  refine ⟨t, flush2_4 t, ?_⟩
  rw [mem_blk]
  intro a
  have ht : t.val = (i 0).val / 5000 := rfl
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- After the region its output array is that function of the arrays it found. -/
theorem final (c : Dev nD) :
    (dat2 (F := Ideal) V c).arrAt 4 cfg2.N
      = result (V c main_v36) (V c main_v26) (V c main_v13) (V c main_v37) :=
  (dat2 (F := Ideal) V c).arrAt_eq_of_cover 4 _ (fun t _ => flushed_eq V c t) cover

end Cert.KernelIdeal.Region2

end
-- ==== Proof.LibScatterAdd.lean ====
/-
  Two general facts about an accumulating scatter read at one element of its result.

  1. `ScatterDims.resultIdx?_eq_some_iff`: update index `j` lands on the operand index `i` exactly when, on every operand
     axis, the window's start plus the window coordinate IS `i`'s coordinate (as integers: the start is read signed and is
     not clamped, and an update that leaves the operand lands nowhere).
  2. `sum_filter_two`: a sum over the indices satisfying a predicate that has at most two solutions, `a` (when `ca`)
     and `b` (when `cb`), is the sum of the two terms that are there. In an overlap-add every output sample is met by
     at most two update elements; the same shape serves any scatter whose colliding updates are at most two.
  Together with `Ideal.hostScatterAdd` (the operand element plus the sum of the updates that land on it) they read the
  scatter at an index without listing the updates.
-/
import Idealize.ShloMosaic.PureOps.Ideal

namespace Idealize.ShloMosaic

namespace ScatterDims

variable {s si u : Shape} (d : ScatterDims s si u)

/-- Update index `j` lands on `i` iff start plus window coordinate is `i`'s coordinate on every operand axis. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show d.start j idx a + (d.window j a : Int) = (((d.start j idx a + (d.window j a : Int)).toNat : Nat) : Int)
      omega
    · intro hh
      funext a
      apply Fin.ext
      have := hh a
      show (d.start j idx a + (d.window j a : Int)).toNat = (i a).val
      omega
  · rename_i h
    constructor
    · intro hh; exact absurd hh (by simp)
    · intro hh
      exact absurd (fun a => by have := hh a; have := (i a).isLt; omega) h

end ScatterDims

/-- A sum over the solutions of a predicate with at most two solutions: `a` when `ca` holds, `b` when `cb` holds. -/
theorem sum_filter_two {ι M : Type*} [Fintype ι] [DecidableEq ι] [AddCommMonoid M] (P : ι → Prop) [DecidablePred P]
    (f : ι → M) (a b : ι) (ca cb : Prop) [Decidable ca] [Decidable cb] (hab : a ≠ b)
    (hP : ∀ j, P j ↔ (ca ∧ j = a) ∨ (cb ∧ j = b)) :
    ∑ j ∈ Finset.univ.filter P, f j = (if ca then f a else 0) + (if cb then f b else 0) := by
  by_cases ha : ca <;> by_cases hb : cb
  · have e : Finset.univ.filter P = {a, b} := by
      ext j; simp only [Finset.mem_filter, Finset.mem_univ, true_and, Finset.mem_insert, Finset.mem_singleton, hP j]
      constructor
      · rintro (⟨-, h⟩ | ⟨-, h⟩)
        · exact Or.inl h
        · exact Or.inr h
      · rintro (h | h)
        · exact Or.inl ⟨ha, h⟩
        · exact Or.inr ⟨hb, h⟩
    rw [e, Finset.sum_pair hab, if_pos ha, if_pos hb]
  · have e : Finset.univ.filter P = {a} := by
      ext j; simp only [Finset.mem_filter, Finset.mem_univ, true_and, Finset.mem_singleton, hP j]
      constructor
      · rintro (⟨-, h⟩ | ⟨h, -⟩)
        · exact h
        · exact absurd h hb
      · intro h; exact Or.inl ⟨ha, h⟩
    rw [e, Finset.sum_singleton, if_pos ha, if_neg hb, add_zero]
  · have e : Finset.univ.filter P = {b} := by
      ext j; simp only [Finset.mem_filter, Finset.mem_univ, true_and, Finset.mem_singleton, hP j]
      constructor
      · rintro (⟨h, -⟩ | ⟨-, h⟩)
        · exact absurd h ha
        · exact h
      · intro h; exact Or.inr ⟨hb, h⟩
    rw [e, Finset.sum_singleton, if_neg ha, if_pos hb, zero_add]
  · have e : Finset.univ.filter P = ∅ := by
      ext j; simp only [Finset.mem_filter, Finset.mem_univ, true_and, hP j, Finset.notMem_empty, iff_false]
      rintro (⟨h, -⟩ | ⟨h, -⟩)
      · exact ha h
      · exact hb h
    rw [e, Finset.sum_empty, if_neg ha, if_neg hb, add_zero]

end Idealize.ShloMosaic
-- ==== Proof.LibRowIndexed.lean ====
/-
  Row-indexed gathers and scatters, read at coordinates.

  A table of rows `[N, C]` (or a vector `[N]`) is addressed by a column of index words `[E, 1]`:
  * a scatter (`x.at[idx].add(u)`) lands update row `e` on table row `i` exactly when the word `idx[e, 0]`, read as a
    signed integer and NOT clamped, is `i`; a word outside `[0, N)` lands nowhere;
  * a gather (`x[idx]`) reads, for result row `e`, the table row `nodeOf idx[e, 0]`: the word read signed and clamped
    into `[0, N - 1]`.
  So the accumulating scatter at table row `i` is the operand plus the sum over the edges `e` with `idx[e, 0] = i`.
-/
import Idealize.ShloMosaic.PureOps.Ideal
import Idealize.ShloMosaic.Lib.ValueIdx
import Idealize.ShloMosaic.Lib.Pipeline.Value
import proofs.«111116_j15650860826706_2_alg».proof.Proof.LibScatterAdd

namespace Idealize.ShloMosaic.RowIndexed

open ValueIdx

/-- The row an index word addresses in a gather: read signed, clamped into `[0, N - 1]`. -/
def nodeOf (N : Nat) (hN : 0 < N) {w : Nat} (v : BitVec w) : Fin N := ⟨min v.toInt.toNat (N - 1), by omega⟩

/-! ## Scatter into a table of rows -/

/-- The dimension numbers of `x.at[idx].add(u)` for a table `[N, C]`, index words `[E, 1]`, update rows `[E, C]`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update entry `(e, c)` lands on table entry `(i, c')` iff the index word of row `e`, read signed, is `i`, and `c = c'`. -/
theorem rowScatter_lands {N E C w : Nat} (wf) (idx : IVec ⟨2, ![E, 1]⟩ w) (e : Fin E) (c : Fin C) (i : Fin N) (c' : Fin C) :
    (rowScatter N E C wf).resultIdx? (ix2 e c) idx = some (ix2 i c') ↔ (idx (ix2 e 0)).toInt = (i.val : Int) ∧ c = c' := by
  rw [ScatterDims.resultIdx?_eq_some_iff]
  have hs0 : (rowScatter N E C wf).start (ix2 e c) idx 0 = (idx (ix2 e 0)).toInt := by
    unfold ScatterDims.start
    rw [dif_pos (show (0 : Fin 2) ∈ (rowScatter N E C wf).scatterDimsToOperandDims from List.mem_singleton.mpr rfl)]
    congr 2
    funext b
    refine Fin.ext ?_
    match b with
    | ⟨0, _⟩ => rfl
    | ⟨1, _⟩ => rfl
  have hs1 : (rowScatter N E C wf).start (ix2 e c) idx 1 = 0 := by
    unfold ScatterDims.start
    rw [dif_neg (show (1 : Fin 2) ∉ ([0] : List (Fin 2)) from by decide)]
  have hw0 : (rowScatter N E C wf).window (ix2 e c) 0 = 0 := by
    unfold ScatterDims.window
    have hm : (0 : Fin 2) ∉ (rowScatter N E C wf).sKept := by
      show (0 : Fin 2) ∉ (List.finRange 2).filter (· ∉ ([0] : List (Fin 2)))
      decide
    rw [dif_neg hm]
  have hw1 : (rowScatter N E C wf).window (ix2 e c) 1 = c.val := by
    unfold ScatterDims.window
    have hm : (1 : Fin 2) ∈ (rowScatter N E C wf).sKept := by
      show (1 : Fin 2) ∈ (List.finRange 2).filter (· ∉ ([0] : List (Fin 2)))
      decide
    rw [dif_pos hm]
    rfl
  constructor
  · intro h
    have h0 := h 0
    have h1 := h 1
    rw [hs0, hw0] at h0
    rw [hs1, hw1] at h1
    have e0 : (((ix2 i c' : (⟨2, ![N, C]⟩ : Shape).Idx) 0).val : Int) = (i.val : Int) := rfl
    have e1 : (((ix2 i c' : (⟨2, ![N, C]⟩ : Shape).Idx) 1).val : Int) = (c'.val : Int) := rfl
    refine ⟨by omega, Fin.ext (by omega)⟩
  · rintro ⟨h0, rfl⟩ a
    match a with
    | ⟨0, _⟩ => show (rowScatter N E C wf).start (ix2 e c) idx 0 + ((rowScatter N E C wf).window (ix2 e c) 0 : Int) = _; rw [hs0, hw0, h0]; simp
    | ⟨1, _⟩ => show (rowScatter N E C wf).start (ix2 e c) idx 1 + ((rowScatter N E C wf).window (ix2 e c) 1 : Int) = _; rw [hs1, hw1]; simp

/-- The accumulating scatter at table entry `(i, c)`: the operand there plus the update entries `(e, c)` of the edges
    `e` whose index word is `i`. -/
theorem rowScatter_add_apply {N E C w : Nat} (wf) (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (rowScatter N E C wf) x idx upd (ix2 i c)
      = x (ix2 i c) + ∑ e ∈ Finset.univ.filter (fun e : Fin E => (idx (ix2 e 0)).toInt = (i.val : Int)), upd (ix2 e c) := by
  unfold Ideal.hostScatterAdd
  congr 1
  rw [Finset.sum_filter, sum_idx2, Finset.sum_filter]
  refine Finset.sum_congr rfl fun e _ => ?_
  simp only [rowScatter_lands]
  by_cases h : (idx (ix2 e 0)).toInt = (i.val : Int)
  · simp only [h, true_and, if_true]
    rw [Finset.sum_ite_eq' Finset.univ c (fun c' => upd (ix2 e c'))]
    simp
  · simp only [h, false_and, if_false]
    exact Finset.sum_const_zero

/-! ## Scatter into a vector -/

/-- The dimension numbers of `x.at[idx].add(u)` for a vector `[N]`, index words `[E, 1]`, updates `[E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on vector entry `i` iff the index word of row `e`, read signed, is `i`. -/
theorem vecScatter_lands {N E w : Nat} (wf) (idx : IVec ⟨2, ![E, 1]⟩ w) (e : Fin E) (i : Fin N) :
    (vecScatter N E wf).resultIdx? (ix1 e) idx = some (ix1 i) ↔ (idx (ix2 e 0)).toInt = (i.val : Int) := by
  rw [ScatterDims.resultIdx?_eq_some_iff]
  have hs0 : (vecScatter N E wf).start (ix1 e) idx 0 = (idx (ix2 e 0)).toInt := by
    unfold ScatterDims.start
    rw [dif_pos (show (0 : Fin 1) ∈ (vecScatter N E wf).scatterDimsToOperandDims from List.mem_singleton.mpr rfl)]
    congr 2
    funext b
    refine Fin.ext ?_
    match b with
    | ⟨0, _⟩ => rfl
    | ⟨1, _⟩ => rfl
  have hw0 : (vecScatter N E wf).window (ix1 e) 0 = 0 := by
    unfold ScatterDims.window
    have hm : (0 : Fin 1) ∉ (vecScatter N E wf).sKept := by
      show (0 : Fin 1) ∉ (List.finRange 1).filter (· ∉ ([0] : List (Fin 1)))
      decide
    rw [dif_neg hm]
  have e0 : (((ix1 i : (⟨1, ![N]⟩ : Shape).Idx) 0).val : Int) = (i.val : Int) := rfl
  constructor
  · intro h
    have h0 := h 0
    rw [hs0, hw0] at h0
    omega
  · intro h0 a
    obtain rfl : a = 0 := Subsingleton.elim _ _
    rw [hs0, hw0, h0]; omega

/-- A sum over the index set of a vector is the sum over its one coordinate. -/
theorem sum_idx1 {M : Type*} [AddCommMonoid M] {n : Nat} (f : (⟨1, ![n]⟩ : Shape).Idx → M) :
    ∑ i, f i = ∑ a : Fin n, f (ix1 a) :=
  (Fintype.sum_equiv (⟨fun i => i 0, ix1, fun i => (eq_ix1 i).symm, fun _ => rfl⟩ : (⟨1, ![n]⟩ : Shape).Idx ≃ Fin n)
    f (fun a => f (ix1 a)) (fun i => congrArg f (eq_ix1 i)))

/-- The accumulating scatter at vector entry `i`: the operand there plus the updates of the edges whose index word is `i`. -/
theorem vecScatter_add_apply {N E w : Nat} (wf) (x : (⟨1, ![N]⟩ : Shape).Idx → EReal) (idx : IVec ⟨2, ![E, 1]⟩ w)
    (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e 0)).toInt = (i.val : Int)), upd (ix1 e) := by
  unfold Ideal.hostScatterAdd
  congr 1
  rw [Finset.sum_filter, sum_idx1, Finset.sum_filter]
  refine Finset.sum_congr rfl fun e _ => ?_
  simp only [vecScatter_lands]

/-! ## Gathers of rows and of vector entries -/

/-- The dimension numbers of `x[idx]` for a table `[N, C]` and index words `[E, 1]`: whole rows, `[E, C]`. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result entry `(e, c)` of a row gather is the table's entry `(nodeOf idx[e, 0], c)`. -/
theorem rowGather_apply {α : Type} {N E C w : Nat} (hN : 0 < N) (wf) (x : (⟨2, ![N, C]⟩ : Shape).Idx → α)
    (idx : IVec ⟨2, ![E, 1]⟩ w) (e : Fin E) (c : Fin C) :
    Host.gather (rowGather N E C wf) x idx (ix2 e c) = x (ix2 (nodeOf N hN (idx (ix2 e 0))) c) := by
  unfold Host.gather
  congr 1
  funext a
  refine Fin.ext ?_
  match a with
  | ⟨0, _⟩ =>
    show (rowGather N E C wf).start (ix2 e c) idx 0 + (rowGather N E C wf).batchCoord (ix2 e c) 0 + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1 + (rowGather N E C wf).offCoord (ix2 e c) 1 = c.val
    rw [GatherDims.batchCoord_eq_zero _ _ _ List.not_mem_nil]
    have hs : (rowGather N E C wf).start (ix2 e c) idx 1 = 0 := by
      unfold GatherDims.start
      rw [dif_neg (show (1 : Fin 2) ∉ ([0] : List (Fin 2)) from by decide)]
    have ho : (rowGather N E C wf).offCoord (ix2 e c) 1 = c.val := by
      unfold GatherDims.offCoord
      have hm : (1 : Fin 2) ∈ (rowGather N E C wf).sKept :=
        (GatherDims.mem_sKept _ _).mpr ⟨fun h => absurd (List.mem_singleton.mp h) (show (1 : Fin 2) ≠ 0 from by decide), List.not_mem_nil⟩
      rw [dif_pos hm]
      rfl
    rw [hs, ho]; simp

/-- The dimension numbers of `x[idx]` for a vector `[N]` and index words `[E, 1]`: entries, `[E]`. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result entry `e` of a vector gather is the vector's entry `nodeOf idx[e, 0]`. -/
theorem vecGather_apply {α : Type} {N E w : Nat} (hN : 0 < N) (wf) (x : (⟨1, ![N]⟩ : Shape).Idx → α)
    (idx : IVec ⟨2, ![E, 1]⟩ w) (e : Fin E) :
    Host.gather (vecGather N E wf) x idx (ix1 e) = x (ix1 (nodeOf N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Small reads used with the above -/

/-- At the exact values the host's accumulating scatter is the sum form. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- A scalar broadcast to any shape reads the scalar everywhere. -/
theorem bcast_scalar_apply {t : Shape} {α : Type} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector of `E` entries kept as a column `[E, 1]` reads entry `e` at `(e, 0)`. -/
theorem col_apply {E : Nat} {α : Type} (h : (⟨1, ![E]⟩ : Shape).BroadcastsInDim ⟨2, ![E, 1]⟩ ![0])
    (v : (⟨1, ![E]⟩ : Shape).Idx → α) (e : Fin E) : broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

end Idealize.ShloMosaic.RowIndexed
-- ==== Proof.LibStraightThrough.lean ====
/-
  Laws on the extended reals for a weight used through the "straight-through" form and for a sigmoid written out.

  • The f32 word 0x3F800000 is the number 1 and the f32 word 0x7F800000 is +∞.
  • An extended real x with |x| = max(x, -x) < +∞ is a real number (the finiteness test a precondition states per entry).
  • For a REAL number w and ANY extended real q:  w + (q - w) = q.  At q = ±∞ both sides are q, because adding or
    subtracting a real leaves an infinity unchanged; so a program that multiplies by  w + (q(w) - w)  multiplies by
    q(w) as soon as w is finite, with nothing asked of q(w).
  • 1 / (1 + e^(-g)) written with the f32 word 1.0 is the sigmoid of g, on every extended real.
-/
import Idealize.ShloMosaic.PureOps.Ideal
import Idealize.ShloMosaic.PureOps.IdealRules

noncomputable section

namespace Cert.LibStraightThrough

open Idealize.ShloMosaic

/-- The f32 word 0x3F800000 is the number 1. -/
theorem one_f32 : Ideal.ofBits .f32 0x3F800000#32 = 1 := IdealRules.sign_bit.ideal_onePat .f32

/-- The f32 word 0x7F800000 is +∞. -/
theorem inf_f32 : Ideal.ofBits .f32 0x7F800000#32 = ⊤ := by simp [Ideal.ofBits, Ideal.ieee]

/-- An extended real whose absolute value compares below the f32 word +∞ is a real number. -/
theorem real_of_abs_lt_inf (x : EReal)
    (h : Ideal.cmp .olt (max x (-x)) (Ideal.ofBits .f32 0x7F800000#32) = 1#1) : ∃ r : ℝ, x = (r : EReal) := by
  rw [inf_f32] at h
  induction x with
  | bot => exact absurd h (by simp [Ideal.cmp])
  | top => exact absurd h (by simp [Ideal.cmp])
  | coe r => exact ⟨r, rfl⟩

/-- For a real `w` and any extended real `q`: w + (q - w) = q. -/
theorem add_sub_cancel_real (w : ℝ) (q : EReal) : (w : EReal) + (q - (w : EReal)) = q := by
  induction q with
  | bot => rw [EReal.bot_sub, EReal.add_bot]
  | top => rw [EReal.top_sub_coe, EReal.add_top_of_ne_bot (EReal.coe_ne_bot w)]
  | coe r => rw [← EReal.coe_sub, ← EReal.coe_add]; exact congrArg _ (by ring)

/-- 1 / (1 + e^(-g)) written with the f32 word 1.0 is the sigmoid of g, on every extended real. -/
theorem logistic_spelt (g : EReal) :
    Ideal.div (Ideal.ofBits .f32 0x3F800000#32) (Ideal.ofBits .f32 0x3F800000#32 + Ideal.exp (-g)) = Ideal.logistic g := by
  rw [one_f32]; rfl

end Cert.LibStraightThrough

end
-- ==== Proof.GcnAlgebra.lean ====
/-
  The algebra of one graph-convolution layer on the extended reals.

  A layer sends node features h to   out(i) = Σ_{edges e into i} h(s_e) · (d(s_e) · d(i)) + b,   the edges being the given
  ones and one self-loop per node, with d(i) = rsqrt(max(in-degree(i), 1)) a nonnegative real. Two facts are used:

  * a sum over the given edges followed by the self-loops splits into the sum over the given edges and one more term
    (a finite sum over a disjoint union; nothing asked of the summands);
  * d(i) · ((0 + Σ_e h(s_e)·d(s_e)) + h(i)·d(i)) = 0 + (Σ_e h(s_e)·(d(s_e)·d(i)) + h(i)·(d(i)·d(i))):
    multiplication by a nonnegative REAL distributes over every sum of extended reals, infinite summands included,
    and + and · are commutative and associative on the extended reals. So the summands h(·), d(s_e) may be anything.

  Also here: jax's index convention (a negative index counts from the end; a gather then clamps) on words that are
  in range, where both steps are the identity.
-/
import Idealize.ShloMosaic.PureOps.Ideal
import Idealize.ShloMosaic.PureOps.Ideal.Laws
import Idealize.ShloMosaic.Lib.DynamicIndex
import proofs.«111116_j15650860826706_2_alg».proof.Proof.LibRowIndexed
import proofs.«111116_j15650860826706_2_alg».proof.Proof.LibStraightThrough

noncomputable section

namespace Gcn

open Idealize.ShloMosaic Idealize.ShloMosaic.RowIndexed

/-! ## Sums -/

/-- Multiplication by a nonnegative real distributes over a finite sum of extended reals. -/
theorem mul_sum_of_nonneg_real {ι : Type*} (s : Finset ι) (f : ι → EReal) {a : EReal} (ha0 : 0 ≤ a) (hat : a ≠ ⊤) :
    a * ∑ i ∈ s, f i = ∑ i ∈ s, a * f i := by
  classical
  induction s using Finset.induction_on with
  | empty => simp
  | insert j s hj ih =>
    rw [Finset.sum_insert hj, Finset.sum_insert hj, EReal.left_distrib_of_nonneg_of_ne_top ha0 hat, ih]

/-- A sum over `m + n` positions is the sum over the first `m` plus the sum over the last `n`. -/
theorem sum_split {M : Type*} [AddCommMonoid M] {m n t : ℕ} (h : m + n = t) (F : Fin t → M) :
    ∑ e : Fin t, F e = ∑ e : Fin m, F ⟨e.val, by omega⟩ + ∑ j : Fin n, F ⟨m + j.val, by omega⟩ := by
  subst h
  rw [Fin.sum_univ_add]
  rfl

/-- A filtered sum over `n` positions whose predicate, among them, singles out position `i`: that one term. -/
theorem sum_filter_eq_single {M : Type*} [AddCommMonoid M] {n : ℕ} (i : Fin n) (P : Fin n → Prop) [DecidablePred P]
    (hP : ∀ j, P j ↔ j = i) (g : Fin n → M) : ∑ j ∈ Finset.univ.filter P, g j = g i := by
  have : Finset.univ.filter P = {i} := by
    ext j; simp only [Finset.mem_filter, Finset.mem_univ, true_and, Finset.mem_singleton, hP j]
  rw [this, Finset.sum_singleton]

/-- THE LAYER'S LAW. `a` is the node's own scale (a nonnegative real), `S` the edges into the node, `h e` / `d e` the
    source's feature and scale, `hi` the node's own feature. -/
theorem layer_law {ι : Type*} (S : Finset ι) (h d : ι → EReal) (hi a : EReal) (ha0 : 0 ≤ a) (hat : a ≠ ⊤) :
    a * (((0 : EReal) + ∑ e ∈ S, h e * d e) + hi * a) = (0 : EReal) + (∑ e ∈ S, h e * (d e * a) + hi * (a * a)) := by
  rw [zero_add, zero_add, EReal.left_distrib_of_nonneg_of_ne_top ha0 hat, mul_sum_of_nonneg_real S _ ha0 hat]
  congr 1
  · refine Finset.sum_congr rfl fun e _ => ?_
    rw [mul_comm a, mul_assoc]
  · rw [mul_comm a, mul_assoc]

/-! ## The scale is a nonnegative real -/

/-- rsqrt of an extended real that is at least 1 — a positive real or +∞ — is a nonnegative real. -/
theorem rsqrt_nonneg_real (y : EReal) (hy : 1 ≤ y) : 0 ≤ Ideal.rsqrt y ∧ Ideal.rsqrt y ≠ ⊤ := by
  induction y with
  | bot => exact absurd hy (not_le.mpr (by exact_mod_cast EReal.bot_lt_coe (1 : ℝ)))
  | top => rw [Ideal.rsqrt_top]; exact ⟨le_refl _, EReal.zero_ne_top⟩
  | coe r =>
    have hr : (1 : ℝ) ≤ r := by exact_mod_cast hy
    rw [Ideal.rsqrt_coe, if_neg (by linarith), if_neg (by linarith)]
    refine ⟨?_, EReal.coe_ne_top _⟩
    exact_mod_cast inv_nonneg.mpr (Real.sqrt_nonneg r)

/-! ## Index words in range -/

/-- jax's wrap of an index word: a negative index counts from the end of the 100000 nodes. -/
def wrap (v : BitVec 32) : BitVec 32 := Scalar.select (IntOp.cmpi .slt v 0#32) (IntOp.addi v 100000#32) v

/-- The node a gather reads for an index word: wrapped, read signed, clamped into the 100000 nodes. -/
def node (v : BitVec 32) : Fin 100000 := nodeOf 100000 (by decide) (wrap v)

theorem wrap_of_nonneg (v : BitVec 32) (h : 0 ≤ v.toInt) : wrap v = v := by
  have hlt : v.slt 0#32 = false := by
    simp only [BitVec.slt, BitVec.toInt_zero, decide_eq_false_iff_not, Int.not_lt]
    exact h
  show (if BitVec.ofBool (v.slt 0#32) = 1 then _ else _) = _
  rw [hlt]
  rfl

/-- A word that, read signed, is node `i` addresses node `i` in a gather. -/
theorem node_of_toInt (v : BitVec 32) (i : Fin 100000) (h : v.toInt = (i.val : Int)) : node v = i := by
  unfold node
  rw [wrap_of_nonneg v (by omega)]
  apply Fin.ext
  show min v.toInt.toNat (100000 - 1) = i.val
  have := i.isLt
  omega

/-- The word of a node number, read signed, is that number. -/
theorem toInt_ofNat_node (n : Fin 100000) : (BitVec.ofNat 32 n.val).toInt = (n.val : Int) :=
  toInt_ofNat_of_lt (by have := n.isLt; omega)

end Gcn

end
-- ==== Proof.GcnSpec.lean ====
/-
  The two-layer graph convolution as two functions of the inputs, entry by entry, and their equality.

  Inputs: node features x [100000, 128], the words of 1600000 edges (row 0 the sources, row 1 the targets), weights
  w1 [128, 128], w2 [128, 64], biases b1 [128], b2 [64]. An edge e LANDS on node i when its target word, read as a signed
  integer, is i (a target outside the nodes lands nowhere); it READS the node `node (source word)` (jax's convention: a
  negative index counts from the end, then the gather clamps).

  * As the kernel computes it: the in-degree counts the given edges and adds 1; d = rsqrt(max(deg, 1)); each layer scales
    its features by d, sums the scaled features over the edges landing on i, adds the node's own scaled feature, and
    multiplies by d(i).
  * As the reference computes it: N self-loop edges are appended to the given ones; the degree counts all of them; each
    layer sums h(s_e) · (d(s_e) · d(t_e)) over all the edges landing on i.
  The two agree on every input: the appended edges contribute exactly the node's own term, an edge landing on i has
  d(t_e) = d(i), and d(i) — a nonnegative real — distributes over the sum (GcnAlgebra's `layer_law`).
-/
import proofs.«111116_j15650860826706_2_alg».proof.Proof.GcnAlgebra
import Idealize.ShloMosaic.Lib.ValueIdx

set_option maxRecDepth 16384

noncomputable section

namespace Gcn

open Idealize.ShloMosaic Idealize.ShloMosaic.ValueIdx Idealize.ShloMosaic.RowIndexed

abbrev EdgeWords := (⟨2, ![2, 1600000]⟩ : Shape).Idx → BitVec 32

def zero : EReal := Ideal.ofBits .f32 0x00000000#32
def one : EReal := Ideal.ofBits .f32 0x3F800000#32
def c08 : EReal := Ideal.ofBits .f32 0x3F4CCCCD#32
def c01 : EReal := Ideal.ofBits .f32 0x3DCCCCCD#32

section Edges
variable (ei : EdgeWords)

/-- The source and target words of given edge `e`. -/
def srcW (e : Fin 1600000) : BitVec 32 := ei (ix2 (0 : Fin 2) e)
def dstW (e : Fin 1600000) : BitVec 32 := ei (ix2 (1 : Fin 2) e)
/-- The same with the 100000 self-loops appended: edge `1600000 + n` goes from node `n` to node `n`. -/
def srcX (e : Fin 1700000) : BitVec 32 := if h : e.val < 1600000 then srcW ei ⟨e.val, h⟩ else BitVec.ofNat 32 (e.val - 1600000)
def dstX (e : Fin 1700000) : BitVec 32 := if h : e.val < 1600000 then dstW ei ⟨e.val, h⟩ else BitVec.ofNat 32 (e.val - 1600000)

/-- The given edges landing on node `i`; the same among the given edges and the self-loops. -/
def into (i : Fin 100000) : Finset (Fin 1600000) := Finset.univ.filter fun e => (dstW ei e).toInt = (i.val : Int)
def intoX (i : Fin 100000) : Finset (Fin 1700000) := Finset.univ.filter fun e => (dstX ei e).toInt = (i.val : Int)

theorem srcX_given (e : Fin 1600000) : srcX ei ⟨e.val, by omega⟩ = srcW ei e := by
  unfold srcX; rw [dif_pos e.isLt]
theorem dstX_given (e : Fin 1600000) : dstX ei ⟨e.val, by omega⟩ = dstW ei e := by
  unfold dstX; rw [dif_pos e.isLt]
theorem srcX_self (n : Fin 100000) : srcX ei ⟨1600000 + n.val, by omega⟩ = BitVec.ofNat 32 n.val := by
  unfold srcX
  rw [dif_neg (show ¬ (1600000 + n.val < 1600000) by omega)]
  exact congrArg (BitVec.ofNat 32) (show 1600000 + n.val - 1600000 = n.val by omega)
theorem dstX_self (n : Fin 100000) : dstX ei ⟨1600000 + n.val, by omega⟩ = BitVec.ofNat 32 n.val := by
  unfold dstX
  rw [dif_neg (show ¬ (1600000 + n.val < 1600000) by omega)]
  exact congrArg (BitVec.ofNat 32) (show 1600000 + n.val - 1600000 = n.val by omega)

/-- A sum over all the edges landing on `i`: over the given ones, plus the self-loop's term. -/
theorem sum_intoX {M : Type*} [AddCommMonoid M] (i : Fin 100000) (g : Fin 1700000 → M) :
    ∑ e ∈ intoX ei i, g e = ∑ e ∈ into ei i, g ⟨e.val, by omega⟩ + g ⟨1600000 + i.val, by omega⟩ := by
  unfold intoX into
  rw [Finset.sum_filter, sum_split (m := 1600000) (n := 100000) (t := 1700000) (by omega), Finset.sum_filter]
  refine congrArg₂ (· + ·) ?_ ?_
  · refine Finset.sum_congr rfl fun e _ => ?_
    rw [dstX_given]
  · rw [← Finset.sum_filter]
    refine sum_filter_eq_single i _ (fun j => ?_) _
    rw [dstX_self, toInt_ofNat_node]
    constructor
    · intro h; exact Fin.ext (by exact_mod_cast h)
    · rintro rfl; rfl

/-- The node scale as the kernel computes it, and as the reference does. -/
def scale (i : Fin 100000) : EReal := Ideal.rsqrt (max ((zero + ∑ _e ∈ into ei i, one) + one) one)
def scaleR (i : Fin 100000) : EReal := Ideal.rsqrt (max (zero + ∑ _e ∈ intoX ei i, one) one)

theorem scaleR_eq (i : Fin 100000) : scaleR ei i = scale ei i := by
  unfold scaleR scale
  rw [sum_intoX ei i (fun _ => one), add_assoc]

theorem scale_nonneg_real (i : Fin 100000) : 0 ≤ scale ei i ∧ scale ei i ≠ ⊤ := by
  refine rsqrt_nonneg_real _ ?_
  calc (1 : EReal) = one := Cert.LibStraightThrough.one_f32.symm
    _ ≤ max ((zero + ∑ _e ∈ into ei i, one) + one) one := le_max_right _ _

/-- The scaled features summed over the given edges landing on `i`. -/
def edgeSum (h : Fin 100000 → EReal) (i : Fin 100000) : EReal := zero + ∑ e ∈ into ei i, h (node (srcW ei e))

/-- One layer's aggregation as the kernel finishes it, from features already scaled. -/
def finish (hs : Fin 100000 → EReal) (b : EReal) (i : Fin 100000) : EReal :=
  scale ei i * (edgeSum ei hs i + hs i) + b

/-- One layer's aggregation as the reference computes it, from unscaled features. -/
def layerR (h : Fin 100000 → EReal) (b : EReal) (i : Fin 100000) : EReal :=
  (zero + ∑ e ∈ intoX ei i, h (node (srcX ei e)) * (scaleR ei (node (srcX ei e)) * scaleR ei (node (dstX ei e)))) + b

theorem layerR_eq (h : Fin 100000 → EReal) (b : EReal) (i : Fin 100000) :
    layerR ei h b i = finish ei (fun n => h n * scale ei n) b i := by
  unfold layerR finish edgeSum
  refine congrArg (· + b) ?_
  have hs := scale_nonneg_real ei i
  rw [sum_intoX, show zero = 0 from Ideal.ofBits_zero_f32]
  simp only [scaleR_eq]
  rw [layer_law (into ei i) (fun e => h (node (srcW ei e))) (fun e => scale ei (node (srcW ei e))) (h i) (scale ei i) hs.1 hs.2]
  refine congrArg ((0 : EReal) + ·) (congrArg₂ (· + ·) ?_ ?_)
  · refine Finset.sum_congr rfl fun e he => ?_
    have hd : (dstW ei e).toInt = (i.val : Int) := (Finset.mem_filter.mp he).2
    rw [srcX_given, dstX_given, node_of_toInt _ i hd]
  · rw [srcX_self, dstX_self, node_of_toInt _ i (toInt_ofNat_node i)]

end Edges

/-! ## The two programs' functions -/

section Programs
variable (x : (⟨2, ![100000, 128]⟩ : Shape).Idx → EReal) (ei : EdgeWords) (w1 : (⟨2, ![128, 128]⟩ : Shape).Idx → EReal)
  (b1 : (⟨1, ![128]⟩ : Shape).Idx → EReal) (w2 : (⟨2, ![128, 64]⟩ : Shape).Idx → EReal) (b2 : (⟨1, ![64]⟩ : Shape).Idx → EReal)

/-- The first linear transform. -/
def lin1 (n : Fin 100000) (k : Fin 128) : EReal := ∑ j : Fin 128, x (ix2 n j) * w1 (ix2 j k)

/-- The kernel's stages. -/
def hs1 (n : Fin 100000) (k : Fin 128) : EReal := lin1 x w1 n k * scale ei n
def agg1K (n : Fin 100000) (k : Fin 128) : EReal := finish ei (fun n' => hs1 x ei w1 n' k) (b1 (ix1 k)) n
def hs2 (n : Fin 100000) (c : Fin 64) : EReal := (∑ k : Fin 128, max (agg1K x ei w1 b1 n k) zero * w2 (ix2 k c)) * scale ei n
def agg2K (n : Fin 100000) (c : Fin 64) : EReal := finish ei (fun n' => hs2 x ei w1 b1 w2 n' c) (b2 (ix1 c)) n
def outK (n : Fin 100000) (c : Fin 64) : EReal := Ideal.logistic (agg2K x ei w1 b1 w2 b2 n c) * c08 + c01

/-- The reference's stages. -/
def agg1R (n : Fin 100000) (k : Fin 128) : EReal := layerR ei (fun n' => lin1 x w1 n' k) (b1 (ix1 k)) n
def lin2R (n : Fin 100000) (c : Fin 64) : EReal := ∑ k : Fin 128, max (agg1R x ei w1 b1 n k) zero * w2 (ix2 k c)
def agg2R (n : Fin 100000) (c : Fin 64) : EReal := layerR ei (fun n' => lin2R x ei w1 b1 w2 n' c) (b2 (ix1 c)) n
def outR (n : Fin 100000) (c : Fin 64) : EReal :=
  Ideal.div one (one + Ideal.exp (-(agg2R x ei w1 b1 w2 b2 n c))) * c08 + c01

theorem agg1_eq (n : Fin 100000) (k : Fin 128) : agg1R x ei w1 b1 n k = agg1K x ei w1 b1 n k := by
  unfold agg1R agg1K
  rw [layerR_eq]
  rfl

theorem hs2_eq (n : Fin 100000) (c : Fin 64) : hs2 x ei w1 b1 w2 n c = lin2R x ei w1 b1 w2 n c * scale ei n := by
  unfold hs2 lin2R
  simp only [agg1_eq]

theorem agg2_eq (n : Fin 100000) (c : Fin 64) : agg2R x ei w1 b1 w2 b2 n c = agg2K x ei w1 b1 w2 b2 n c := by
  unfold agg2R agg2K
  rw [layerR_eq]
  simp only [hs2_eq]

/-- The reference's function is the kernel's, entry by entry, on every input. -/
theorem outR_eq (n : Fin 100000) (c : Fin 64) : outR x ei w1 b1 w2 b2 n c = outK x ei w1 b1 w2 b2 n c := by
  unfold outR outK
  rw [agg2_eq]
  exact congrArg (· * c08 + c01) (Cert.LibStraightThrough.logistic_spelt _)

end Programs

end Gcn

end
-- ==== Proof.KernelStages.lean ====
/-
  The host operations of the idealized kernel program between its three regions, as functions of arrays, read at
  coordinates.

  * the two rows of the edge words as vectors of 1600000 words (a slice, then a reshape);
  * jax's wrap of the source words (a negative index counts from the end of the 100000 nodes);
  * the column of node scales: the count of the edges landing on a node (a scatter-add of ones into zeros), plus one,
    its maximum with one, rsqrt, kept as a column [100000, 1];
  * the edge sums of a table of node rows: gather the rows the (wrapped) source words name, scatter-add them at the
    target words into zeros;
  * a bias vector kept as a row [1, c].
-/
import proofs.«111116_j15650860826706_2_alg».proof.KernelIdeal
import proofs.«111116_j15650860826706_2_alg».proof.Proof.Gen.KernelIdeal
import proofs.«111116_j15650860826706_2_alg».proof.Proof.LibRowIndexed
import proofs.«111116_j15650860826706_2_alg».proof.Proof.LibKeepdimsColumn
import proofs.«111116_j15650860826706_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages

open Idealize.ShloMosaic Idealize.ShloMosaic.ValueIdx Idealize.ShloMosaic.RowIndexed
open Cert.KernelIdeal Cert.KernelIdeal.Gen

/-! ## The stages -/

/-- Row `0` of the edge words as a vector: the sources. -/
def srcWords (ei : IVec S2x1600000 32) : IVec S1600000 32 :=
  shapeCast S1600000 (extractStridedSlice S1x1600000 ![0, 0] ei slices_S2x1600000_S1x1600000_0_0) shapeCasts_S1x1600000_S1600000
/-- Row `1`: the targets. -/
def dstWords (ei : IVec S2x1600000 32) : IVec S1600000 32 :=
  shapeCast S1600000 (extractStridedSlice S1x1600000 ![1, 0] ei slices_S2x1600000_S1x1600000_1_0) shapeCasts_S1x1600000_S1600000
/-- jax's wrap of a vector of index words. -/
def wrapWords (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s
/-- A vector of words as a column. -/
def colOf (w : IVec S1600000 32) : IVec S1600000x1 32 := broadcastInDim S1600000x1 ![0] bcast_S1600000_S1600000x1_0 w

/-- The column of node scales. -/
def scaleCol (dst : IVec S1600000 32) : FVec Ideal S100000x1 .f32 :=
  shapeCast S100000x1
    (Host.rsqrt (maximumf
      (addf (Host.scatterAdd scatter_S100000_S1600000x1_S1600000_n_0_0_1
          (broadcastInDim S100000 ![] bcast_S_S100000 (constant (F := Ideal) S_ .f32 0x00000000#32))
          (colOf dst)
          (broadcastInDim S1600000 ![] bcast_S_S1600000 (constant (F := Ideal) S_ .f32 0x3F800000#32)))
        (broadcastInDim S100000 ![] bcast_S_S100000 (constant (F := Ideal) S_ .f32 0x3F800000#32)))
      (broadcastInDim S100000 ![] bcast_S_S100000 (constant (F := Ideal) S_ .f32 0x3F800000#32))))
    shapeCasts_S100000_S100000x1

/-- The edge sums of a table of 128-entry node rows. -/
def edgeSums128 (H : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (colOf dst)
    (Host.gather gather_S100000x128_S1600000x1_S1600000x128_1_0_n_n_0_1_1128 H (colOf (wrapWords src)))

/-- The edge sums of a table of 64-entry node rows. -/
def edgeSums64 (H : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (colOf dst)
    (Host.gather gather_S100000x64_S1600000x1_S1600000x64_1_0_n_n_0_1_164 H (colOf (wrapWords src)))

/-- A bias vector as a row. -/
def biasRow128 (b : FVec Ideal S128 .f32) : FVec Ideal S1x128 .f32 := shapeCast S1x128 b shapeCasts_S128_S1x128
def biasRow64 (b : FVec Ideal S64 .f32) : FVec Ideal S1x64 .f32 := shapeCast S1x64 b shapeCasts_S64_S1x64

/-! ## Read at coordinates -/

theorem srcWords_apply (ei : IVec S2x1600000 32) (e : Fin 1600000) : srcWords ei (ix1 e) = Gcn.srcW ei e := by
  unfold srcWords
  rw [shapeCast_1a_a_apply]
  exact extractStridedSlice_apply ![0, 0] ei slices_S2x1600000_S1x1600000_0_0 (ix2 (0 : Fin 1) e) (ix2 (0 : Fin 2) e) (fun a => match a with
    | ⟨0, _⟩ => by show 0 = 0 + 0; omega
    | ⟨1, _⟩ => by show e.val = 0 + e.val; omega)

theorem dstWords_apply (ei : IVec S2x1600000 32) (e : Fin 1600000) : dstWords ei (ix1 e) = Gcn.dstW ei e := by
  unfold dstWords
  rw [shapeCast_1a_a_apply]
  exact extractStridedSlice_apply ![1, 0] ei slices_S2x1600000_S1x1600000_1_0 (ix2 (0 : Fin 1) e) (ix2 (1 : Fin 2) e) (fun a => match a with
    | ⟨0, _⟩ => by show 1 = 1 + 0; omega
    | ⟨1, _⟩ => by show e.val = 0 + e.val; omega)

theorem wrapWords_apply (s : IVec S1600000 32) (e : Fin 1600000) : wrapWords s (ix1 e) = Gcn.wrap (s (ix1 e)) := rfl

theorem colOf_apply (w : IVec S1600000 32) (e : Fin 1600000) : colOf w (ix2 e (0 : Fin 1)) = w (ix1 e) := by
  unfold colOf
  exact col_apply _ w e

theorem biasRow128_apply (b : FVec Ideal S128 .f32) (k : Fin 128) : biasRow128 b (ix2 (0 : Fin 1) k) = b (ix1 k) := by
  unfold biasRow128
  exact shapeCast_a_1a_apply b shapeCasts_S128_S1x128 _ k
theorem biasRow64_apply (b : FVec Ideal S64 .f32) (k : Fin 64) : biasRow64 b (ix2 (0 : Fin 1) k) = b (ix1 k) := by
  unfold biasRow64
  exact shapeCast_a_1a_apply b shapeCasts_S64_S1x64 _ k

end Cert.KernelIdeal.Stages

end
-- ==== Proof.KernelValue.lean ====
/-
  The result array of the idealized kernel program as one function of its argument arrays.

  The run's fold gives the buffers' contents at every boundary between host operations and regions. Reading it back from
  the result buffer: the last region's output is its function of the arrays it found (Region2), which are the edge sums of
  the second region's output, that output itself, the column of node scales and the second bias row; the second region's
  output is its function (Region1) of the edge sums of the first region's output, that output, the scales, the first bias
  row and the second weights; the first region's output is its function (Region0) of the features, the first weights and
  the scales; and the scales and the edge words come from the argument holding the edges.
-/
import proofs.«111116_j15650860826706_2_alg».proof.Proof.KernelRun
import proofs.«111116_j15650860826706_2_alg».proof.Proof.Region0
import proofs.«111116_j15650860826706_2_alg».proof.Proof.Region1
import proofs.«111116_j15650860826706_2_alg».proof.Proof.Region2
import proofs.«111116_j15650860826706_2_alg».proof.Proof.KernelStages
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat Cfg Window)
open Cert.KernelIdeal Cert.KernelIdeal.Gen

/-! ## The stages as functions of the arguments -/

def disK (a1 : IVec S2x1600000 32) : FVec Ideal S100000x1 .f32 := Stages.scaleCol (Stages.dstWords a1)
def hs1K (a0 : FVec Ideal S100000x128 .f32) (a1 : IVec S2x1600000 32) (a2 : FVec Ideal S128x128 .f32) : FVec Ideal S100000x128 .f32 :=
  Region0.scaledProduct a0 a2 (disK a1)
def tmp1K (a0 : FVec Ideal S100000x128 .f32) (a1 : IVec S2x1600000 32) (a2 : FVec Ideal S128x128 .f32) : FVec Ideal S100000x128 .f32 :=
  Stages.edgeSums128 (hs1K a0 a1 a2) (Stages.srcWords a1) (Stages.dstWords a1)
def hs2K (a0 : FVec Ideal S100000x128 .f32) (a1 : IVec S2x1600000 32) (a2 : FVec Ideal S128x128 .f32) (a3 : FVec Ideal S128 .f32)
    (a4 : FVec Ideal S128x64 .f32) : FVec Ideal S100000x64 .f32 :=
  Region1.nextScaled (tmp1K a0 a1 a2) (hs1K a0 a1 a2) (disK a1) (Stages.biasRow128 a3) a4
def tmp2K (a0 : FVec Ideal S100000x128 .f32) (a1 : IVec S2x1600000 32) (a2 : FVec Ideal S128x128 .f32) (a3 : FVec Ideal S128 .f32)
    (a4 : FVec Ideal S128x64 .f32) : FVec Ideal S100000x64 .f32 :=
  Stages.edgeSums64 (hs2K a0 a1 a2 a3 a4) (Stages.srcWords a1) (Stages.dstWords a1)
/-- The program's result array. -/
def outK (a0 : FVec Ideal S100000x128 .f32) (a1 : IVec S2x1600000 32) (a2 : FVec Ideal S128x128 .f32) (a3 : FVec Ideal S128 .f32)
    (a4 : FVec Ideal S128x64 .f32) (a5 : FVec Ideal S64 .f32) : FVec Ideal S100000x64 .f32 :=
  Region2.result (tmp2K a0 a1 a2 a3 a4) (hs2K a0 a1 a2 a3 a4) (disK a1) (Stages.biasRow64 a5)

/-! ## The stretches of host operations, over any contents they start from -/

theorem h0_v13 (Wv : Valuation τ sig (Elt Ideal)) :
    StableHlo.after (hostOps0 (F := Ideal)) Wv (Proc.devRef .tc main_v13) = disK (Wv (Proc.devRef .tc main_arg1)) := by
  dsimp only [hostOps0]; after_results; rfl
theorem h0_v1 (Wv : Valuation τ sig (Elt Ideal)) :
    StableHlo.after (hostOps0 (F := Ideal)) Wv (Proc.devRef .tc main_v1) = Stages.srcWords (Wv (Proc.devRef .tc main_arg1)) := by
  dsimp only [hostOps0]; after_results; rfl
theorem h0_v3 (Wv : Valuation τ sig (Elt Ideal)) :
    StableHlo.after (hostOps0 (F := Ideal)) Wv (Proc.devRef .tc main_v3) = Stages.dstWords (Wv (Proc.devRef .tc main_arg1)) := by
  dsimp only [hostOps0]; after_results; rfl
theorem h0_main_arg0 (Wv : Valuation τ sig (Elt Ideal)) :
    StableHlo.after (hostOps0 (F := Ideal)) Wv (Proc.devRef .tc main_arg0) = Wv (Proc.devRef .tc main_arg0) := by
  dsimp only [hostOps0]; after_results
theorem h0_main_arg2 (Wv : Valuation τ sig (Elt Ideal)) :
    StableHlo.after (hostOps0 (F := Ideal)) Wv (Proc.devRef .tc main_arg2) = Wv (Proc.devRef .tc main_arg2) := by
  dsimp only [hostOps0]; after_results
theorem h0_main_arg3 (Wv : Valuation τ sig (Elt Ideal)) :
    StableHlo.after (hostOps0 (F := Ideal)) Wv (Proc.devRef .tc main_arg3) = Wv (Proc.devRef .tc main_arg3) := by
  dsimp only [hostOps0]; after_results
theorem h0_main_arg4 (Wv : Valuation τ sig (Elt Ideal)) :
    StableHlo.after (hostOps0 (F := Ideal)) Wv (Proc.devRef .tc main_arg4) = Wv (Proc.devRef .tc main_arg4) := by
  dsimp only [hostOps0]; after_results
theorem h0_main_arg5 (Wv : Valuation τ sig (Elt Ideal)) :
    StableHlo.after (hostOps0 (F := Ideal)) Wv (Proc.devRef .tc main_arg5) = Wv (Proc.devRef .tc main_arg5) := by
  dsimp only [hostOps0]; after_results

theorem h1_v24 (Wv : Valuation τ sig (Elt Ideal)) :
    StableHlo.after (hostOps1 (F := Ideal)) Wv (Proc.devRef .tc main_v24)
      = Stages.edgeSums128 (Wv (Proc.devRef .tc main_v14)) (Wv (Proc.devRef .tc main_v1)) (Wv (Proc.devRef .tc main_v3)) := by
  dsimp only [hostOps1]; after_results; rfl
theorem h1_v25 (Wv : Valuation τ sig (Elt Ideal)) :
    StableHlo.after (hostOps1 (F := Ideal)) Wv (Proc.devRef .tc main_v25) = Stages.biasRow128 (Wv (Proc.devRef .tc main_arg3)) := by
  dsimp only [hostOps1]; after_results; rfl
theorem h1_main_v14 (Wv : Valuation τ sig (Elt Ideal)) :
    StableHlo.after (hostOps1 (F := Ideal)) Wv (Proc.devRef .tc main_v14) = Wv (Proc.devRef .tc main_v14) := by
  dsimp only [hostOps1]; after_results
theorem h1_main_v13 (Wv : Valuation τ sig (Elt Ideal)) :
    StableHlo.after (hostOps1 (F := Ideal)) Wv (Proc.devRef .tc main_v13) = Wv (Proc.devRef .tc main_v13) := by
  dsimp only [hostOps1]; after_results
theorem h1_main_v1 (Wv : Valuation τ sig (Elt Ideal)) :
    StableHlo.after (hostOps1 (F := Ideal)) Wv (Proc.devRef .tc main_v1) = Wv (Proc.devRef .tc main_v1) := by
  dsimp only [hostOps1]; after_results
theorem h1_main_v3 (Wv : Valuation τ sig (Elt Ideal)) :
    StableHlo.after (hostOps1 (F := Ideal)) Wv (Proc.devRef .tc main_v3) = Wv (Proc.devRef .tc main_v3) := by
  dsimp only [hostOps1]; after_results
theorem h1_main_arg4 (Wv : Valuation τ sig (Elt Ideal)) :
    StableHlo.after (hostOps1 (F := Ideal)) Wv (Proc.devRef .tc main_arg4) = Wv (Proc.devRef .tc main_arg4) := by
  dsimp only [hostOps1]; after_results
theorem h1_main_arg5 (Wv : Valuation τ sig (Elt Ideal)) :
    StableHlo.after (hostOps1 (F := Ideal)) Wv (Proc.devRef .tc main_arg5) = Wv (Proc.devRef .tc main_arg5) := by
  dsimp only [hostOps1]; after_results

theorem h2_v36 (Wv : Valuation τ sig (Elt Ideal)) :
    StableHlo.after (hostOps2 (F := Ideal)) Wv (Proc.devRef .tc main_v36)
      = Stages.edgeSums64 (Wv (Proc.devRef .tc main_v26)) (Wv (Proc.devRef .tc main_v1)) (Wv (Proc.devRef .tc main_v3)) := by
  dsimp only [hostOps2]; after_results; rfl
theorem h2_v37 (Wv : Valuation τ sig (Elt Ideal)) :
    StableHlo.after (hostOps2 (F := Ideal)) Wv (Proc.devRef .tc main_v37) = Stages.biasRow64 (Wv (Proc.devRef .tc main_arg5)) := by
  dsimp only [hostOps2]; after_results; rfl
theorem h2_main_v26 (Wv : Valuation τ sig (Elt Ideal)) :
    StableHlo.after (hostOps2 (F := Ideal)) Wv (Proc.devRef .tc main_v26) = Wv (Proc.devRef .tc main_v26) := by
  dsimp only [hostOps2]; after_results
theorem h2_main_v13 (Wv : Valuation τ sig (Elt Ideal)) :
    StableHlo.after (hostOps2 (F := Ideal)) Wv (Proc.devRef .tc main_v13) = Wv (Proc.devRef .tc main_v13) := by
  dsimp only [hostOps2]; after_results

/-! ## The fold, boundary by boundary -/

variable (m : (ℓ : Loc nD τ sig) → Buf (Elt Ideal) ℓ) (ρ : Dev nD → PrngReg) (c : Dev nD)

-- after the first stretch
theorem w1_v13 : W1 m ρ c (Proc.devRef .tc main_v13) = disK (m ((c.tc : Thread nD τ).loc main_arg1)) := h0_v13 (W0 m ρ c)
theorem w1_v1 : W1 m ρ c (Proc.devRef .tc main_v1) = Stages.srcWords (m ((c.tc : Thread nD τ).loc main_arg1)) := h0_v1 (W0 m ρ c)
theorem w1_v3 : W1 m ρ c (Proc.devRef .tc main_v3) = Stages.dstWords (m ((c.tc : Thread nD τ).loc main_arg1)) := h0_v3 (W0 m ρ c)
theorem w1_arg0 : W1 m ρ c (Proc.devRef .tc main_arg0) = (m ((c.tc : Thread nD τ).loc main_arg0)) := h0_main_arg0 (W0 m ρ c)
theorem w1_arg2 : W1 m ρ c (Proc.devRef .tc main_arg2) = (m ((c.tc : Thread nD τ).loc main_arg2)) := h0_main_arg2 (W0 m ρ c)
theorem w1_arg3 : W1 m ρ c (Proc.devRef .tc main_arg3) = (m ((c.tc : Thread nD τ).loc main_arg3)) := h0_main_arg3 (W0 m ρ c)
theorem w1_arg4 : W1 m ρ c (Proc.devRef .tc main_arg4) = (m ((c.tc : Thread nD τ).loc main_arg4)) := h0_main_arg4 (W0 m ρ c)
theorem w1_arg5 : W1 m ρ c (Proc.devRef .tc main_arg5) = (m ((c.tc : Thread nD τ).loc main_arg5)) := h0_main_arg5 (W0 m ρ c)

-- after the first region
theorem w2_v14 : W2 m ρ c (Proc.devRef .tc main_v14) = hs1K (m ((c.tc : Thread nD τ).loc main_arg0)) (m ((c.tc : Thread nD τ).loc main_arg1)) (m ((c.tc : Thread nD τ).loc main_arg2)) := by
  refine (W2_arr m ρ c 3).trans ((Region0.final (V1 m ρ) c).trans ?_)
  show Region0.scaledProduct (W1 m ρ c (Proc.devRef .tc main_arg0)) (W1 m ρ c (Proc.devRef .tc main_arg2)) (W1 m ρ c (Proc.devRef .tc main_v13)) = _
  rw [w1_arg0, w1_arg2, w1_v13]; rfl
theorem w2_v13 : W2 m ρ c (Proc.devRef .tc main_v13) = disK (m ((c.tc : Thread nD τ).loc main_arg1)) :=
  ((W2_arr m ρ c 2).trans (((dat0 (V1 m ρ) c).arrAt_in 2 rfl _).trans (A_eq0 (V1 m ρ) c 2))).trans (w1_v13 m ρ c)
theorem w2_v1 : W2 m ρ c (Proc.devRef .tc main_v1) = Stages.srcWords (m ((c.tc : Thread nD τ).loc main_arg1)) := (W2_of_ne m ρ c main_v1 (by decide)).trans (w1_v1 m ρ c)
theorem w2_v3 : W2 m ρ c (Proc.devRef .tc main_v3) = Stages.dstWords (m ((c.tc : Thread nD τ).loc main_arg1)) := (W2_of_ne m ρ c main_v3 (by decide)).trans (w1_v3 m ρ c)
theorem w2_arg3 : W2 m ρ c (Proc.devRef .tc main_arg3) = (m ((c.tc : Thread nD τ).loc main_arg3)) := (W2_of_ne m ρ c main_arg3 (by decide)).trans (w1_arg3 m ρ c)
theorem w2_arg4 : W2 m ρ c (Proc.devRef .tc main_arg4) = (m ((c.tc : Thread nD τ).loc main_arg4)) := (W2_of_ne m ρ c main_arg4 (by decide)).trans (w1_arg4 m ρ c)
theorem w2_arg5 : W2 m ρ c (Proc.devRef .tc main_arg5) = (m ((c.tc : Thread nD τ).loc main_arg5)) := (W2_of_ne m ρ c main_arg5 (by decide)).trans (w1_arg5 m ρ c)

-- after the second stretch
theorem w3_v24 : W3 m ρ c (Proc.devRef .tc main_v24) = tmp1K (m ((c.tc : Thread nD τ).loc main_arg0)) (m ((c.tc : Thread nD τ).loc main_arg1)) (m ((c.tc : Thread nD τ).loc main_arg2)) := by
  refine (h1_v24 (W2 m ρ c)).trans ?_
  rw [w2_v14, w2_v1, w2_v3]; rfl
theorem w3_v25 : W3 m ρ c (Proc.devRef .tc main_v25) = Stages.biasRow128 (m ((c.tc : Thread nD τ).loc main_arg3)) := by
  refine (h1_v25 (W2 m ρ c)).trans ?_
  rw [w2_arg3]
theorem w3_v14 : W3 m ρ c (Proc.devRef .tc main_v14) = hs1K (m ((c.tc : Thread nD τ).loc main_arg0)) (m ((c.tc : Thread nD τ).loc main_arg1)) (m ((c.tc : Thread nD τ).loc main_arg2)) := (h1_main_v14 (W2 m ρ c)).trans (w2_v14 m ρ c)
theorem w3_v13 : W3 m ρ c (Proc.devRef .tc main_v13) = disK (m ((c.tc : Thread nD τ).loc main_arg1)) := (h1_main_v13 (W2 m ρ c)).trans (w2_v13 m ρ c)
theorem w3_v1 : W3 m ρ c (Proc.devRef .tc main_v1) = Stages.srcWords (m ((c.tc : Thread nD τ).loc main_arg1)) := (h1_main_v1 (W2 m ρ c)).trans (w2_v1 m ρ c)
theorem w3_v3 : W3 m ρ c (Proc.devRef .tc main_v3) = Stages.dstWords (m ((c.tc : Thread nD τ).loc main_arg1)) := (h1_main_v3 (W2 m ρ c)).trans (w2_v3 m ρ c)
theorem w3_arg4 : W3 m ρ c (Proc.devRef .tc main_arg4) = (m ((c.tc : Thread nD τ).loc main_arg4)) := (h1_main_arg4 (W2 m ρ c)).trans (w2_arg4 m ρ c)
theorem w3_arg5 : W3 m ρ c (Proc.devRef .tc main_arg5) = (m ((c.tc : Thread nD τ).loc main_arg5)) := (h1_main_arg5 (W2 m ρ c)).trans (w2_arg5 m ρ c)

-- after the second region
theorem w4_v26 : W4 m ρ c (Proc.devRef .tc main_v26) = hs2K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 5).trans ((Region1.final (V3 m ρ) c).trans ?_)
  show Region1.nextScaled (W3 m ρ c (Proc.devRef .tc main_v24)) (W3 m ρ c (Proc.devRef .tc main_v14)) (W3 m ρ c (Proc.devRef .tc main_v13))
    (W3 m ρ c (Proc.devRef .tc main_v25)) (W3 m ρ c (Proc.devRef .tc main_arg4)) = _
  rw [w3_v24, w3_v14, w3_v13, w3_v25, w3_arg4]; rfl
theorem w4_v13 : W4 m ρ c (Proc.devRef .tc main_v13) = disK (m ((c.tc : Thread nD τ).loc main_arg1)) :=
  ((W4_arr m ρ c 2).trans (((dat1 (V3 m ρ) c).arrAt_in 2 rfl _).trans (A_eq1 (V3 m ρ) c 2))).trans (w3_v13 m ρ c)
theorem w4_v1 : W4 m ρ c (Proc.devRef .tc main_v1) = Stages.srcWords (m ((c.tc : Thread nD τ).loc main_arg1)) := (W4_of_ne m ρ c main_v1 (by decide)).trans (w3_v1 m ρ c)
theorem w4_v3 : W4 m ρ c (Proc.devRef .tc main_v3) = Stages.dstWords (m ((c.tc : Thread nD τ).loc main_arg1)) := (W4_of_ne m ρ c main_v3 (by decide)).trans (w3_v3 m ρ c)
theorem w4_arg5 : W4 m ρ c (Proc.devRef .tc main_arg5) = (m ((c.tc : Thread nD τ).loc main_arg5)) := (W4_of_ne m ρ c main_arg5 (by decide)).trans (w3_arg5 m ρ c)

-- after the third stretch
theorem w5_v36 : W5 m ρ c (Proc.devRef .tc main_v36) = tmp2K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (h2_v36 (W4 m ρ c)).trans ?_
  rw [w4_v26, w4_v1, w4_v3]; rfl
theorem w5_v37 : W5 m ρ c (Proc.devRef .tc main_v37) = Stages.biasRow64 (m ((c.tc : Thread nD τ).loc main_arg5)) := by
  refine (h2_v37 (W4 m ρ c)).trans ?_
  rw [w4_arg5]
theorem w5_v26 : W5 m ρ c (Proc.devRef .tc main_v26) = hs2K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (h2_main_v26 (W4 m ρ c)).trans (w4_v26 m ρ c)
theorem w5_v13 : W5 m ρ c (Proc.devRef .tc main_v13) = disK (m ((c.tc : Thread nD τ).loc main_arg1)) := (h2_main_v13 (W4 m ρ c)).trans (w4_v13 m ρ c)

/-- THE RESULT BUFFER after the run holds the program's function of the argument arrays. -/
theorem result_eq : W6 m ρ c (Proc.devRef .tc main_v38) = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 4).trans ((Region2.final (V5 m ρ) c).trans ?_)
  show Region2.result (W5 m ρ c (Proc.devRef .tc main_v36)) (W5 m ρ c (Proc.devRef .tc main_v26)) (W5 m ρ c (Proc.devRef .tc main_v13))
    (W5 m ρ c (Proc.devRef .tc main_v37)) = _
  rw [w5_v36, w5_v26, w5_v13, w5_v37]; rfl

/-- The run with the result named by that function. -/
theorem run (ρ : Dev nD → PrngReg) : θ_run defs (onTc (τ := τ) (main (F := Ideal))) ⟨m, fun _ => 0, ρ⟩ (fun r => ∀ c : Dev nD,
      r.2.mem ((c.tc : Thread nD τ).loc main_v38)
        = outK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.RunValue.run_result m ρ)

end Cert.KernelIdeal.Fold

end
-- ==== Proof.KernelStagesSums.lean ====
/-
  The node scales and the edge sums of the idealized kernel program, read at coordinates.

  * The scale of node i is rsqrt(max((0 + Σ_{given edges landing on i} 1) + 1, 1)).
  * The edge sum of a table H at (i, c) is 0 + Σ_{given edges e landing on i} H(node(source word of e), c).
  The scatters are accumulating scatters into zeros at the target words; the gathers read whole rows at the wrapped
  source words.
-/
import proofs.«111116_j15650860826706_2_alg».proof.Proof.KernelStages

set_option maxRecDepth 16384

noncomputable section

namespace Cert.KernelIdeal.Stages

open Idealize.ShloMosaic Idealize.ShloMosaic.ValueIdx Idealize.ShloMosaic.RowIndexed
open Cert.KernelIdeal Cert.KernelIdeal.Gen

/-- The program's dimension numbers are the row-indexed ones. -/
theorem wf_vec : ScatterDims.WF ⟨1, ![100000]⟩ ⟨2, ![1600000, 1]⟩ ⟨1, ![1600000]⟩ [] [0] [0] 1 := by decide
theorem wf_row128 : ScatterDims.WF ⟨2, ![100000, 128]⟩ ⟨2, ![1600000, 1]⟩ ⟨2, ![1600000, 128]⟩ [1] [0] [0] 1 := by decide
theorem wf_row64 : ScatterDims.WF ⟨2, ![100000, 64]⟩ ⟨2, ![1600000, 1]⟩ ⟨2, ![1600000, 64]⟩ [1] [0] [0] 1 := by decide
theorem wf_gather128 : GatherDims.WF ⟨2, ![100000, 128]⟩ ⟨2, ![1600000, 1]⟩ ⟨2, ![1600000, 128]⟩ [1] [0] [] [0] [] 1 ![1, 128] := by decide
theorem wf_gather64 : GatherDims.WF ⟨2, ![100000, 64]⟩ ⟨2, ![1600000, 1]⟩ ⟨2, ![1600000, 64]⟩ [1] [0] [] [0] [] 1 ![1, 64] := by decide
theorem rec_vec : scatter_S100000_S1600000x1_S1600000_n_0_0_1 = vecScatter 100000 1600000 wf_vec := rfl
theorem rec_row128 : scatter_S100000x128_S1600000x1_S1600000x128_1_0_0_1 = rowScatter 100000 1600000 128 wf_row128 := rfl
theorem rec_row64 : scatter_S100000x64_S1600000x1_S1600000x64_1_0_0_1 = rowScatter 100000 1600000 64 wf_row64 := rfl
theorem rec_gather128 : gather_S100000x128_S1600000x1_S1600000x128_1_0_n_n_0_1_1128 = rowGather 100000 1600000 128 wf_gather128 := rfl
theorem rec_gather64 : gather_S100000x64_S1600000x1_S1600000x64_1_0_n_n_0_1_164 = rowGather 100000 1600000 64 wf_gather64 := rfl

theorem hostRsqrt_apply {s : Shape} {φ : FTy} (v : FVec Ideal s φ) (i : s.Idx) : Host.rsqrt v i = Ideal.rsqrt (v i) := rfl

/-- The node scale at node `i`. -/
theorem scaleCol_apply (ei : IVec S2x1600000 32) (i : Fin 100000) : scaleCol (dstWords ei) (ix2 i (0 : Fin 1)) = Gcn.scale ei i := by
  unfold scaleCol
  rw [KeepdimsColumn.shapeCast_a_a1_apply, hostRsqrt_apply, maximumf_apply, addf_apply, scatterAdd_ideal, rec_vec, vecScatter_add_apply]
  simp only [bcast_scalar_apply, constant_apply, colOf_apply, dstWords_apply]
  unfold Gcn.scale Gcn.into Gcn.zero Gcn.one
  rfl

/-- The edge sums at entry `(i, c)`. -/
theorem edgeSums128_apply (H : FVec Ideal S100000x128 .f32) (ei : IVec S2x1600000 32) (i : Fin 100000) (c : Fin 128) :
    edgeSums128 H (srcWords ei) (dstWords ei) (ix2 i c) = Gcn.edgeSum ei (fun n => H (ix2 n c)) i := by
  unfold edgeSums128
  rw [scatterAdd_ideal, rec_row128, rowScatter_add_apply, rec_gather128]
  simp only [bcast_scalar_apply, constant_apply, colOf_apply, dstWords_apply, rowGather_apply (N := 100000) (by decide),
    wrapWords_apply, srcWords_apply]
  unfold Gcn.edgeSum Gcn.into Gcn.zero Gcn.node
  rfl

theorem edgeSums64_apply (H : FVec Ideal S100000x64 .f32) (ei : IVec S2x1600000 32) (i : Fin 100000) (c : Fin 64) :
    edgeSums64 H (srcWords ei) (dstWords ei) (ix2 i c) = Gcn.edgeSum ei (fun n => H (ix2 n c)) i := by
  unfold edgeSums64
  rw [scatterAdd_ideal, rec_row64, rowScatter_add_apply, rec_gather64]
  simp only [bcast_scalar_apply, constant_apply, colOf_apply, dstWords_apply, rowGather_apply (N := 100000) (by decide),
    wrapWords_apply, srcWords_apply]
  unfold Gcn.edgeSum Gcn.into Gcn.zero Gcn.node
  rfl

end Cert.KernelIdeal.Stages

end
-- ==== Proof.KernelSpecEq.lean ====
/-
  The idealized kernel program's result function, entry by entry, is the kernel's function of GcnSpec.

  Each stage is read at (n, c): the column of scales at a node is that node's scale; the first region's output is the
  first linear transform times the scale; the edge sums are sums over the given edges landing on the node; the second
  region's output is relu of the finished first aggregation through the second linear transform, times the scale; the
  last region's output is the sigmoid of the finished second aggregation through the final affine map.
-/
import proofs.«111116_j15650860826706_2_alg».proof.Proof.KernelValue
import proofs.«111116_j15650860826706_2_alg».proof.Proof.KernelStagesSums

set_option maxRecDepth 16384

noncomputable section

namespace Cert.KernelIdeal.SpecEq

open Idealize.ShloMosaic Idealize.ShloMosaic.ValueIdx
open Cert.KernelIdeal Cert.KernelIdeal.Gen Cert.KernelIdeal.Stages

variable (a0 : FVec Ideal S100000x128 .f32) (a1 : IVec S2x1600000 32) (a2 : FVec Ideal S128x128 .f32) (a3 : FVec Ideal S128 .f32)
  (a4 : FVec Ideal S128x64 .f32) (a5 : FVec Ideal S64 .f32)

theorem disK_apply (n : Fin 100000) : Fold.disK a1 (ix2 n (0 : Fin 1)) = Gcn.scale a1 n := scaleCol_apply a1 n

theorem hs1K_apply (n : Fin 100000) (k : Fin 128) : Fold.hs1K a0 a1 a2 (ix2 n k) = Gcn.hs1 a0 a1 a2 n k := by
  show (∑ j : Fin 128, a0 (ix2 n j) * a2 (ix2 j k)) * Fold.disK a1 (ix2 n (0 : Fin 1)) = _
  rw [disK_apply]
  rfl

theorem tmp1K_apply (n : Fin 100000) (k : Fin 128) :
    Fold.tmp1K a0 a1 a2 (ix2 n k) = Gcn.edgeSum a1 (fun n' => Gcn.hs1 a0 a1 a2 n' k) n := by
  unfold Fold.tmp1K
  rw [edgeSums128_apply]
  simp only [hs1K_apply]

theorem hs2K_apply (n : Fin 100000) (c : Fin 64) : Fold.hs2K a0 a1 a2 a3 a4 (ix2 n c) = Gcn.hs2 a0 a1 a2 a3 a4 n c := by
  show (∑ k : Fin 128, max (Fold.disK a1 (ix2 n (0 : Fin 1)) * (Fold.tmp1K a0 a1 a2 (ix2 n k) + Fold.hs1K a0 a1 a2 (ix2 n k))
      + biasRow128 a3 (ix2 (0 : Fin 1) k)) (Ideal.ofBits .f32 0x00000000#32) * a4 (ix2 k c)) * Fold.disK a1 (ix2 n (0 : Fin 1)) = _
  simp only [disK_apply, tmp1K_apply, hs1K_apply, biasRow128_apply]
  rfl

theorem tmp2K_apply (n : Fin 100000) (c : Fin 64) :
    Fold.tmp2K a0 a1 a2 a3 a4 (ix2 n c) = Gcn.edgeSum a1 (fun n' => Gcn.hs2 a0 a1 a2 a3 a4 n' c) n := by
  unfold Fold.tmp2K
  rw [edgeSums64_apply]
  simp only [hs2K_apply]

theorem outK_apply (n : Fin 100000) (c : Fin 64) : Fold.outK a0 a1 a2 a3 a4 a5 (ix2 n c) = Gcn.outK a0 a1 a2 a3 a4 a5 n c := by
  show Ideal.logistic (Fold.disK a1 (ix2 n (0 : Fin 1)) * (Fold.tmp2K a0 a1 a2 a3 a4 (ix2 n c) + Fold.hs2K a0 a1 a2 a3 a4 (ix2 n c))
      + biasRow64 a5 (ix2 (0 : Fin 1) c)) * Ideal.ofBits .f32 0x3F4CCCCD#32 + Ideal.ofBits .f32 0x3DCCCCCD#32 = _
  simp only [disK_apply, tmp2K_apply, hs2K_apply, biasRow64_apply]
  rfl

/-- THE KERNEL PROGRAM'S RESULT ARRAY is the kernel's function of the arguments. -/
theorem outK_eq : Fold.outK a0 a1 a2 a3 a4 a5 = fun i => Gcn.outK a0 a1 a2 a3 a4 a5 (i 0) (i 1) := by
  funext i
  obtain ⟨n, c, rfl⟩ : ∃ (n : Fin 100000) (c : Fin 64), i = ix2 n c := ⟨i 0, i 1, eq_ix2 i⟩
  exact outK_apply a0 a1 a2 a3 a4 a5 n c

end Cert.KernelIdeal.SpecEq

end
-- ==== Proof.ReferenceEdges.lean ====
/-
  The reference program's edge bookkeeping, read at coordinates.

  The reference appends one self-loop per node to the given edges (a concatenation of the edge words with 0, 1, …, 99999),
  wraps negative words, and from the extended edges computes the node scales and, per edge, the product of the scales of
  its two ends. Here: the extended source and target words; their wrapped forms; the scales; the per-edge products.
-/
import proofs.«111116_j15650860826706_2_alg».proof.Proof.Gen.ReferenceIdeal.Read
import proofs.«111116_j15650860826706_2_alg».proof.Proof.LibRowIndexed
import proofs.«111116_j15650860826706_2_alg».proof.Proof.GcnSpec
import Idealize.ShloMosaic.Lib.Pipeline.Value
import Idealize.ShloMosaic.Lib.ValueIdx

set_option maxRecDepth 16384

noncomputable section

namespace Cert.ReferenceIdeal.RefEdges

open Idealize.ShloMosaic Idealize.ShloMosaic.ValueIdx Idealize.ShloMosaic.RowIndexed
open Cert.ReferenceIdeal Cert.ReferenceIdeal.Gen Cert.ReferenceIdeal.Read

variable (x1 : (⟨S2x1600000, .i32⟩ : BufTy).Contents (Elt Ideal))

/-- The extended source words: the given ones, then the node numbers. -/
theorem srcExt (e : Fin 1700000) : val_main_v3 (F := Ideal) x1 (ix1 e) = Gcn.srcX x1 e := by
  unfold val_main_v3 Gcn.srcX
  by_cases h : e.val < 1600000
  · rw [dif_pos h]
    rw [concatenate_pair_apply_left _ _ _ concatenates_S1600000_S100000_S1700000_d0 (ix1 e) rfl
      (ix1 (⟨e.val, h⟩ : Fin 1600000)) (fun b => by obtain rfl : b = 0 := Subsingleton.elim _ _; rfl)]
    rw [val_main_v2_apply, val_main_v1_apply]
    exact congrArg x1 (funext fun a => Fin.ext (by
      match a with
      | ⟨0, _⟩ => rfl
      | ⟨1, _⟩ => show e.val % 1600000 = e.val; omega))
  · rw [dif_neg h]
    rw [concatenate_pair_apply_right _ _ _ concatenates_S1600000_S100000_S1700000_d0 (ix1 e) rfl rfl
      (ix1 (⟨e.val - 1600000, by have := e.isLt; omega⟩ : Fin 100000))
      (fun b hb => absurd (Subsingleton.elim _ _) hb) (by show e.val - 1600000 + 1600000 = e.val; omega)]
    rfl

/-- The extended target words. -/
theorem dstExt (e : Fin 1700000) : val_main_v6 (F := Ideal) x1 (ix1 e) = Gcn.dstX x1 e := by
  unfold val_main_v6 Gcn.dstX
  by_cases h : e.val < 1600000
  · rw [dif_pos h]
    rw [concatenate_pair_apply_left _ _ _ concatenates_S1600000_S100000_S1700000_d0 (ix1 e) rfl
      (ix1 (⟨e.val, h⟩ : Fin 1600000)) (fun b => by obtain rfl : b = 0 := Subsingleton.elim _ _; rfl)]
    rw [val_main_v5_apply, val_main_v4_apply]
    exact congrArg x1 (funext fun a => Fin.ext (by
      match a with
      | ⟨0, _⟩ => rfl
      | ⟨1, _⟩ => show e.val % 1600000 = e.val; omega))
  · rw [dif_neg h]
    rw [concatenate_pair_apply_right _ _ _ concatenates_S1600000_S100000_S1700000_d0 (ix1 e) rfl rfl
      (ix1 (⟨e.val - 1600000, by have := e.isLt; omega⟩ : Fin 100000))
      (fun b hb => absurd (Subsingleton.elim _ _) hb) (by show e.val - 1600000 + 1600000 = e.val; omega)]
    rfl

/-! ## The wrapped words -/

theorem wrapSrcA (e : Fin 1700000) : val_main_v19 (F := Ideal) x1 (ix1 e) = Gcn.wrap (Gcn.srcX x1 e) := by
  rw [val_main_v19_apply, val_main_v16_apply, val_main_v18_apply, val_main_v15_apply, val_main_v17_apply, srcExt]
  rfl

theorem wrapDstA (e : Fin 1700000) : val_main_v26 (F := Ideal) x1 (ix1 e) = Gcn.wrap (Gcn.dstX x1 e) := by
  rw [val_main_v26_apply, val_main_v23_apply, val_main_v25_apply, val_main_v22_apply, val_main_v24_apply, dstExt]
  rfl

theorem wrapSrcB (e : Fin 1700000) : val_main_v34 (F := Ideal) x1 (ix1 e) = Gcn.wrap (Gcn.srcX x1 e) := by
  rw [val_main_v34_apply, val_main_v31_apply, val_main_v33_apply, val_main_v30_apply, val_main_v32_apply, srcExt]
  rfl

theorem wrapSrcC (e : Fin 1700000) : val_main_v59 (F := Ideal) x1 (ix1 e) = Gcn.wrap (Gcn.srcX x1 e) := by
  rw [val_main_v59_apply, val_main_v56_apply, val_main_v58_apply, val_main_v55_apply, val_main_v57_apply, srcExt]
  rfl

theorem wrapDstC (e : Fin 1700000) : val_main_v66 (F := Ideal) x1 (ix1 e) = Gcn.wrap (Gcn.dstX x1 e) := by
  rw [val_main_v66_apply, val_main_v63_apply, val_main_v65_apply, val_main_v62_apply, val_main_v64_apply, dstExt]
  rfl

theorem wrapSrcD (e : Fin 1700000) : val_main_v74 (F := Ideal) x1 (ix1 e) = Gcn.wrap (Gcn.srcX x1 e) := by
  rw [val_main_v74_apply, val_main_v71_apply, val_main_v73_apply, val_main_v70_apply, val_main_v72_apply, srcExt]
  rfl

/-! ## The words as columns -/

theorem col_v10 (e : Fin 1700000) : val_main_v10 (F := Ideal) x1 (ix2 e (0 : Fin 1)) = val_main_v6 (F := Ideal) x1 (ix1 e) := by
  rw [val_main_v10_apply]
  exact congrArg (val_main_v6 (F := Ideal) x1) (funext fun a => match a with | ⟨0, _⟩ => rfl)

theorem col_v20 (e : Fin 1700000) : val_main_v20 (F := Ideal) x1 (ix2 e (0 : Fin 1)) = val_main_v19 (F := Ideal) x1 (ix1 e) := by
  rw [val_main_v20_apply]
  exact congrArg (val_main_v19 (F := Ideal) x1) (funext fun a => match a with | ⟨0, _⟩ => rfl)

theorem col_v27 (e : Fin 1700000) : val_main_v27 (F := Ideal) x1 (ix2 e (0 : Fin 1)) = val_main_v26 (F := Ideal) x1 (ix1 e) := by
  rw [val_main_v27_apply]
  exact congrArg (val_main_v26 (F := Ideal) x1) (funext fun a => match a with | ⟨0, _⟩ => rfl)

theorem col_v35 (e : Fin 1700000) : val_main_v35 (F := Ideal) x1 (ix2 e (0 : Fin 1)) = val_main_v34 (F := Ideal) x1 (ix1 e) := by
  rw [val_main_v35_apply]
  exact congrArg (val_main_v34 (F := Ideal) x1) (funext fun a => match a with | ⟨0, _⟩ => rfl)

theorem col_v41 (e : Fin 1700000) : val_main_v41 (F := Ideal) x1 (ix2 e (0 : Fin 1)) = val_main_v6 (F := Ideal) x1 (ix1 e) := by
  rw [val_main_v41_apply]
  exact congrArg (val_main_v6 (F := Ideal) x1) (funext fun a => match a with | ⟨0, _⟩ => rfl)

theorem col_v50 (e : Fin 1700000) : val_main_v50 (F := Ideal) x1 (ix2 e (0 : Fin 1)) = val_main_v6 (F := Ideal) x1 (ix1 e) := by
  rw [val_main_v50_apply]
  exact congrArg (val_main_v6 (F := Ideal) x1) (funext fun a => match a with | ⟨0, _⟩ => rfl)

theorem col_v60 (e : Fin 1700000) : val_main_v60 (F := Ideal) x1 (ix2 e (0 : Fin 1)) = val_main_v59 (F := Ideal) x1 (ix1 e) := by
  rw [val_main_v60_apply]
  exact congrArg (val_main_v59 (F := Ideal) x1) (funext fun a => match a with | ⟨0, _⟩ => rfl)

theorem col_v67 (e : Fin 1700000) : val_main_v67 (F := Ideal) x1 (ix2 e (0 : Fin 1)) = val_main_v66 (F := Ideal) x1 (ix1 e) := by
  rw [val_main_v67_apply]
  exact congrArg (val_main_v66 (F := Ideal) x1) (funext fun a => match a with | ⟨0, _⟩ => rfl)

theorem col_v75 (e : Fin 1700000) : val_main_v75 (F := Ideal) x1 (ix2 e (0 : Fin 1)) = val_main_v74 (F := Ideal) x1 (ix1 e) := by
  rw [val_main_v75_apply]
  exact congrArg (val_main_v74 (F := Ideal) x1) (funext fun a => match a with | ⟨0, _⟩ => rfl)

theorem col_v81 (e : Fin 1700000) : val_main_v81 (F := Ideal) x1 (ix2 e (0 : Fin 1)) = val_main_v6 (F := Ideal) x1 (ix1 e) := by
  rw [val_main_v81_apply]
  exact congrArg (val_main_v6 (F := Ideal) x1) (funext fun a => match a with | ⟨0, _⟩ => rfl)

/-! ## The node scales (computed twice by the reference, once per layer) -/

/-- The program's dimension numbers are the row-indexed ones. -/
theorem wf_vec : ScatterDims.WF ⟨1, ![100000]⟩ ⟨2, ![1700000, 1]⟩ ⟨1, ![1700000]⟩ [] [0] [0] 1 := by decide
theorem wf_gather : GatherDims.WF ⟨1, ![100000]⟩ ⟨2, ![1700000, 1]⟩ ⟨1, ![1700000]⟩ [] [0] [] [0] [] 1 ![1] := by decide
theorem rec_vec : scatter_S100000_S1700000x1_S1700000_n_0_0_1 = vecScatter 100000 1700000 wf_vec := rfl
theorem rec_gather : gather_S100000_S1700000x1_S1700000_n_0_n_n_0_1_1 = vecGather 100000 1700000 wf_gather := rfl

theorem scaleA (i : Fin 100000) : val_main_v14 (F := Ideal) x1 (ix1 i) = Gcn.scaleR x1 i := by
  rw [val_main_v14_apply, val_main_v13_apply]
  unfold val_main_v11
  rw [scatterAdd_ideal, rec_vec, vecScatter_add_apply]
  simp only [col_v10, dstExt, val_main_v9_apply, val_main_v12_apply, val_main_v8_apply, val_main_cst_0_apply,
    val_main_cst_apply, val_main_cst_1_apply, Ideal.ofBits_def, Ideal.maximumf_def, Ideal.hostUnary_rsqrt_def]
  unfold Gcn.scaleR Gcn.intoX Gcn.zero Gcn.one
  rfl

theorem scaleB (i : Fin 100000) : val_main_v54 (F := Ideal) x1 (ix1 i) = Gcn.scaleR x1 i := by
  rw [val_main_v54_apply, val_main_v53_apply]
  unfold val_main_v51
  rw [scatterAdd_ideal, rec_vec, vecScatter_add_apply]
  simp only [col_v50, dstExt, val_main_v49_apply, val_main_v52_apply, val_main_v48_apply, val_main_cst_9_apply,
    val_main_cst_8_apply, val_main_cst_10_apply, Ideal.ofBits_def, Ideal.maximumf_def, Ideal.hostUnary_rsqrt_def]
  unfold Gcn.scaleR Gcn.intoX Gcn.zero Gcn.one
  rfl

/-! ## The per-edge product of the two ends' scales -/

theorem normA (e : Fin 1700000) : val_main_v29 (F := Ideal) x1 (ix1 e)
    = Gcn.scaleR x1 (Gcn.node (Gcn.srcX x1 e)) * Gcn.scaleR x1 (Gcn.node (Gcn.dstX x1 e)) := by
  rw [val_main_v29_apply]
  unfold val_main_v21 val_main_v28
  rw [rec_gather, vecGather_apply (N := 100000) (by decide), vecGather_apply (N := 100000) (by decide), col_v20, col_v27, wrapSrcA, wrapDstA, scaleA, scaleA,
    Ideal.mulf_def]
  rfl

theorem normB (e : Fin 1700000) : val_main_v69 (F := Ideal) x1 (ix1 e)
    = Gcn.scaleR x1 (Gcn.node (Gcn.srcX x1 e)) * Gcn.scaleR x1 (Gcn.node (Gcn.dstX x1 e)) := by
  rw [val_main_v69_apply]
  unfold val_main_v61 val_main_v68
  rw [rec_gather, vecGather_apply (N := 100000) (by decide), vecGather_apply (N := 100000) (by decide), col_v60, col_v67, wrapSrcC, wrapDstC, scaleB, scaleB,
    Ideal.mulf_def]
  rfl

end Cert.ReferenceIdeal.RefEdges

end
-- ==== Proof.ReferenceValue.lean ====
/-
  The reference program's result as a function of its arguments, entry by entry.

  Layer by layer: the linear transform read as a sum; each extended edge's message — the feature row of the node its
  (wrapped) source word names, times the product of its two ends' scales; the scatter-add of the messages at the target
  words into zeros, plus the bias; relu and the second linear transform; the same aggregation again; and
  1 / (1 + e^(-a)) · f32(0.8) + f32(0.1).
-/
import proofs.«111116_j15650860826706_2_alg».proof.Proof.ReferenceEdges

set_option maxRecDepth 16384

noncomputable section

namespace Cert.ReferenceIdeal.RefValue

open Idealize.ShloMosaic Idealize.ShloMosaic.ValueIdx Idealize.ShloMosaic.RowIndexed
open Cert.ReferenceIdeal Cert.ReferenceIdeal.Gen Cert.ReferenceIdeal.Read Cert.ReferenceIdeal.RefEdges

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The program's dimension numbers are the row-indexed ones. -/
theorem wf_row128 : ScatterDims.WF ⟨2, ![100000, 128]⟩ ⟨2, ![1700000, 1]⟩ ⟨2, ![1700000, 128]⟩ [1] [0] [0] 1 := by decide
theorem wf_row64 : ScatterDims.WF ⟨2, ![100000, 64]⟩ ⟨2, ![1700000, 1]⟩ ⟨2, ![1700000, 64]⟩ [1] [0] [0] 1 := by decide
theorem wf_gather128 : GatherDims.WF ⟨2, ![100000, 128]⟩ ⟨2, ![1700000, 1]⟩ ⟨2, ![1700000, 128]⟩ [1] [0] [] [0] [] 1 ![1, 128] := by decide
theorem wf_gather64 : GatherDims.WF ⟨2, ![100000, 64]⟩ ⟨2, ![1700000, 1]⟩ ⟨2, ![1700000, 64]⟩ [1] [0] [] [0] [] 1 ![1, 64] := by decide
theorem rec_row128 : scatter_S100000x128_S1700000x1_S1700000x128_1_0_0_1 = rowScatter 100000 1700000 128 wf_row128 := rfl
theorem rec_row64 : scatter_S100000x64_S1700000x1_S1700000x64_1_0_0_1 = rowScatter 100000 1700000 64 wf_row64 := rfl
theorem rec_gather128 : gather_S100000x128_S1700000x1_S1700000x128_1_0_n_n_0_1_1128 = rowGather 100000 1700000 128 wf_gather128 := rfl
theorem rec_gather64 : gather_S100000x64_S1700000x1_S1700000x64_1_0_n_n_0_1_164 = rowGather 100000 1700000 64 wf_gather64 := rfl

/-- The first linear transform at (n, k). -/
theorem lin1A (n : Fin 100000) (k : Fin 128) : val_main_v7 (F := Ideal) x0 x2 (ix2 n k) = Gcn.lin1 x0 x2 n k := by
  rw [val_main_v7_apply]
  unfold Gcn.lin1
  refine Finset.sum_congr rfl fun j _ => ?_
  exact congrArg₂ (· * ·)
    (congrArg x0 (funext fun a => match a with | ⟨0, _⟩ => rfl | ⟨1, _⟩ => rfl))
    (congrArg x2 (funext fun a => match a with | ⟨0, _⟩ => rfl | ⟨1, _⟩ => rfl))

/-- The message of extended edge `e` at feature `k`, layer 1. -/
theorem msgA (e : Fin 1700000) (k : Fin 128) : val_main_v39 (F := Ideal) x0 x1 x2 (ix2 e k)
    = Gcn.lin1 x0 x2 (Gcn.node (Gcn.srcX x1 e)) k
      * (Gcn.scaleR x1 (Gcn.node (Gcn.srcX x1 e)) * Gcn.scaleR x1 (Gcn.node (Gcn.dstX x1 e))) := by
  rw [val_main_v39_apply, val_main_v38_apply, val_main_v37_apply]
  unfold val_main_v36
  rw [rec_gather128, rowGather_apply (N := 100000) (by decide), col_v35, wrapSrcB, lin1A, Ideal.mulf_def]
  have hidx : idx_main_v37 (idx_main_v38 (ix2 e k)) = (ix1 e : S1700000.Idx) := funext fun a => match a with | ⟨0, _⟩ => rfl
  rw [hidx, normA]
  rfl

/-- The first layer's aggregation at (n, k). -/
theorem agg1A (n : Fin 100000) (k : Fin 128) : val_main_v45 (F := Ideal) x0 x1 x2 x3 (ix2 n k) = Gcn.agg1R x0 x1 x2 x3 n k := by
  rw [val_main_v45_apply, val_main_v44_apply, val_main_v43_apply]
  unfold val_main_v42
  rw [scatterAdd_ideal, rec_row128, rowScatter_add_apply]
  simp only [col_v41, dstExt, msgA, val_main_v40_apply, val_main_cst_7_apply, Ideal.ofBits_def, Ideal.addf_def]
  unfold Gcn.agg1R Gcn.layerR Gcn.intoX Gcn.zero
  exact congrArg₂ (· + ·) rfl (congrArg x3 (funext fun a => match a with | ⟨0, _⟩ => rfl))

/-- relu, then the second linear transform, at (n, c). -/
theorem lin2A (n : Fin 100000) (c : Fin 64) : val_main_v47 (F := Ideal) x0 x1 x2 x3 x4 (ix2 n c) = Gcn.lin2R x0 x1 x2 x3 x4 n c := by
  rw [val_main_v47_apply]
  unfold Gcn.lin2R
  refine Finset.sum_congr rfl fun k _ => ?_
  refine congrArg₂ (· * ·) ?_ (congrArg x4 (funext fun a => match a with | ⟨0, _⟩ => rfl | ⟨1, _⟩ => rfl))
  rw [show lidx_main_v47 (ix2 n c) k = ix2 n k from funext fun a => match a with | ⟨0, _⟩ => rfl | ⟨1, _⟩ => rfl]
  rw [val_main_v46_apply, agg1A, val_main_call0_v0_apply]
  rfl

/-- The message of extended edge `e` at feature `c`, layer 2. -/
theorem msgB (e : Fin 1700000) (c : Fin 64) : val_main_v79 (F := Ideal) x0 x1 x2 x3 x4 (ix2 e c)
    = Gcn.lin2R x0 x1 x2 x3 x4 (Gcn.node (Gcn.srcX x1 e)) c
      * (Gcn.scaleR x1 (Gcn.node (Gcn.srcX x1 e)) * Gcn.scaleR x1 (Gcn.node (Gcn.dstX x1 e))) := by
  rw [val_main_v79_apply, val_main_v78_apply, val_main_v77_apply]
  unfold val_main_v76
  rw [rec_gather64, rowGather_apply (N := 100000) (by decide), col_v75, wrapSrcD, lin2A, Ideal.mulf_def]
  have hidx : idx_main_v77 (idx_main_v78 (ix2 e c)) = (ix1 e : S1700000.Idx) := funext fun a => match a with | ⟨0, _⟩ => rfl
  rw [hidx, normB]
  rfl

/-- The second layer's aggregation at (n, c). -/
theorem agg2A (n : Fin 100000) (c : Fin 64) : val_main_v85 (F := Ideal) x0 x1 x2 x3 x4 x5 (ix2 n c) = Gcn.agg2R x0 x1 x2 x3 x4 x5 n c := by
  rw [val_main_v85_apply, val_main_v84_apply, val_main_v83_apply]
  unfold val_main_v82
  rw [scatterAdd_ideal, rec_row64, rowScatter_add_apply]
  simp only [col_v81, dstExt, msgB, val_main_v80_apply, val_main_cst_17_apply, Ideal.ofBits_def, Ideal.addf_def]
  unfold Gcn.agg2R Gcn.layerR Gcn.intoX Gcn.zero
  exact congrArg₂ (· + ·) rfl (congrArg x5 (funext fun a => match a with | ⟨0, _⟩ => rfl))

/-- The result at (n, c). -/
theorem outA (n : Fin 100000) (c : Fin 64) : val_main_v95 (F := Ideal) x0 x1 x2 x3 x4 x5 (ix2 n c) = Gcn.outR x0 x1 x2 x3 x4 x5 n c := by
  rw [val_main_v95_apply, val_main_v93_apply, val_main_v91_apply, val_main_v89_apply, val_main_v87_apply, val_main_v86_apply, agg2A,
    val_main_v94_apply, val_main_v92_apply, val_main_v90_apply, val_main_v88_apply]
  simp only [val_main_cst_18_apply, val_main_cst_19_apply, val_main_cst_20_apply, val_main_cst_21_apply, Ideal.ofBits_def,
    Ideal.addf_def, Ideal.mulf_def, Ideal.hostDivf_def, Ideal.hostUnary_exp_def, Ideal.hostNegf_def, Ideal.negf_def]
  unfold Gcn.outR Gcn.one Gcn.c08 Gcn.c01
  rfl

/-- THE REFERENCE'S RESULT ARRAY is the reference's function of the arguments. -/
theorem result_eq : val_main_v95 (F := Ideal) x0 x1 x2 x3 x4 x5 = fun i => Gcn.outR x0 x1 x2 x3 x4 x5 (i 0) (i 1) := by
  funext i
  obtain ⟨n, c, rfl⟩ : ∃ (n : Fin 100000) (c : Fin 64), i = ix2 n c := ⟨i 0, i 1, eq_ix2 i⟩
  exact outA x0 x1 x2 x3 x4 x5 n c

end Cert.ReferenceIdeal.RefValue

end
-- ==== Proof.lean ====
/-
  A two-layer graph convolution: a Pallas kernel program of three pipelined regions among host gathers and scatters,
  against a jnp reference — equal at the exact values on every input.

  The kernel scales each layer's features by the node scale d = rsqrt(max(in-degree + 1, 1)) BEFORE the edge stage, sums the
  scaled features over the given edges with a plain gather and scatter-add, adds the node's own scaled feature in the next
  region's prologue and multiplies by d(i); the reference appends one self-loop per node to the edges and sums
  h(s_e) · (d(s_e) · d(t_e)) over all of them. The two are one function of the inputs (GcnSpec): the self-loops contribute
  exactly the node's own term, and d(i), a nonnegative real, distributes over any sum of extended reals — so nothing is
  asked of the inputs, the edge words included (a word out of range lands nowhere in a scatter and is clamped in a gather, in
  both programs alike).

  The frames: the two kernel programs' by the generated frame certificates; the reference's by its generated run.
  Nothing was rewritten by the idealization, so there is nothing to preserve. The value claim: the kernel program's run
  with its result named (KernelRun), read back through the three regions and the host stretches (KernelValue, Region0–2,
  KernelStages*), is the kernel's function (KernelSpecEq); the reference's generated run, read one operation at a time
  (ReferenceEdges, ReferenceValue), is the reference's function; and the two functions agree (GcnSpec).
-/
import proofs.«111116_j15650860826706_2_alg».proof.Defs
import proofs.«111116_j15650860826706_2_alg».proof.Proof.Gen.Kernel
import proofs.«111116_j15650860826706_2_alg».proof.Proof.Gen.Kernel.Skeleton
import proofs.«111116_j15650860826706_2_alg».proof.Proof.Gen.Kernel.Launch
import proofs.«111116_j15650860826706_2_alg».proof.Proof.Gen.Kernel.Points
import proofs.«111116_j15650860826706_2_alg».proof.Proof.Gen.Kernel.Frame
import proofs.«111116_j15650860826706_2_alg».proof.Proof.Gen.KernelIdeal
import proofs.«111116_j15650860826706_2_alg».proof.Proof.Gen.KernelIdeal.Skeleton
import proofs.«111116_j15650860826706_2_alg».proof.Proof.Gen.KernelIdeal.Launch
import proofs.«111116_j15650860826706_2_alg».proof.Proof.Gen.KernelIdeal.Points
import proofs.«111116_j15650860826706_2_alg».proof.Proof.Gen.KernelIdeal.Frame
import proofs.«111116_j15650860826706_2_alg».proof.Proof.Gen.ReferenceIdeal
import proofs.«111116_j15650860826706_2_alg».proof.Proof.Gen.Pre_finite_inputs
import proofs.«111116_j15650860826706_2_alg».proof.Proof.Gen.ReferenceIdeal.Run
import proofs.«111116_j15650860826706_2_alg».proof.Proof.Gen.ReferenceIdeal.Read
import proofs.«111116_j15650860826706_2_alg».proof.Proof.KernelSpecEq
import proofs.«111116_j15650860826706_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result array: each run's result is its function of the arguments, the arguments
    agree, and the two functions are equal entry by entry. -/
theorem algebraic : Cert.algebraic_KernelIdeal_ReferenceIdeal := by
  intro m ρ m' ρ' _ hagree
  refine ⟨_, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v95_eq, Cert.ReferenceIdeal.RefValue.result_eq, (hagree c).1, (hagree c).2.1,
    (hagree c).2.2.1, (hagree c).2.2.2.1, (hagree c).2.2.2.2.1, (hagree c).2.2.2.2.2, Cert.KernelIdeal.SpecEq.outK_eq]
  funext i
  exact Gcn.outR_eq _ _ _ _ _ _ (i 0) (i 1)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
